-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1250000 : Shape := ⟨2, ![2, 1250000]⟩
abbrev S2x500000 : Shape := ⟨2, ![2, 500000]⟩
abbrev S64x2 : Shape := ⟨2, ![64, 2]⟩
abbrev S64 : Shape := ⟨1, ![64]⟩
abbrev S64x64 : Shape := ⟨2, ![64, 64]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_arg8 : FVec F S64x64 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x2 .f32) (main_arg1 : IVec S2x1250000 32) (main_arg2 : IVec S2x500000 32) (main_arg3 : FVec F S64x2 .f32) (main_arg4 : FVec F S64 .f32) (main_arg5 : FVec F S64x2 .f32) (main_arg6 : FVec F S64x64 .f32) (main_arg7 : FVec F S64 .f32) (main_arg8 : FVec F S64x64 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S64x2 .f32 := Host.absf main_arg3
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg5
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg6 main_arg7 main_arg8 main_v13 main_v16
-- ==== Kernel.lean ====
abbrev S100000x2 : Shape := ⟨2, ![100000, 2]⟩
abbrev S2x1250000 : Shape := ⟨2, ![2, 1250000]⟩
abbrev S2x500000 : Shape := ⟨2, ![2, 500000]⟩
abbrev S64x2 : Shape := ⟨2, ![64, 2]⟩
abbrev S64 : Shape := ⟨1, ![64]⟩
abbrev S64x64 : Shape := ⟨2, ![64, 64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x2 : Shape := ⟨2, ![1250000, 2]⟩
abbrev S2x64 : Shape := ⟨2, ![2, 64]⟩
abbrev S104448x2 : Shape := ⟨2, ![104448, 2]⟩
abbrev S104448x1 : Shape := ⟨2, ![104448, 1]⟩
abbrev S104448x64 : Shape := ⟨2, ![104448, 64]⟩
abbrev S6144x2 : Shape := ⟨2, ![6144, 2]⟩
abbrev S6144x1 : Shape := ⟨2, ![6144, 1]⟩
abbrev S6144x64 : Shape := ⟨2, ![6144, 64]⟩
abbrev S1x64 : Shape := ⟨2, ![1, 64]⟩
abbrev S100000x64 : Shape := ⟨2, ![100000, 64]⟩
abbrev S1250000x64 : Shape := ⟨2, ![1250000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 100
  | .vmem => 22
  | .smem => 0
  | _ => 0

abbrev bufTy : (tb : Table) → Fin (tcTables nBuf tb) → BufTy
  | .hbm, ⟨0, _⟩ => ⟨S100000x2, .f32⟩
  | .hbm, ⟨1, _⟩ => ⟨S2x1250000, .i32⟩
  | .hbm, ⟨2, _⟩ => ⟨S2x500000, .i32⟩
  | .hbm, ⟨3, _⟩ => ⟨S64x2, .f32⟩
  | .hbm, ⟨4, _⟩ => ⟨S64, .f32⟩
  | .hbm, ⟨5, _⟩ => ⟨S64x2, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .f32⟩
  | .hbm, ⟨14, _⟩ => ⟨S1250000, .f32⟩
  | .hbm, ⟨15, _⟩ => ⟨S_, .f32⟩
  | .hbm, ⟨16, _⟩ => ⟨S100000, .f32⟩
  | .hbm, ⟨17, _⟩ => ⟨S1250000x1, .i32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S1250000, .i32⟩
  | .hbm, ⟨22, _⟩ => ⟨S1250000, .i1⟩
  | .hbm, ⟨23, _⟩ => ⟨S_, .i32⟩
  | .hbm, ⟨24, _⟩ => ⟨S1250000, .i32⟩
  | .hbm, ⟨25, _⟩ => ⟨S1250000, .i32⟩
  | .hbm, ⟨26, _⟩ => ⟨S1250000, .i32⟩
  | .hbm, ⟨27, _⟩ => ⟨S1250000x1, .i32⟩
  | .hbm, ⟨28, _⟩ => ⟨S1250000x2, .f32⟩
  | .hbm, ⟨29, _⟩ => ⟨S_, .f32⟩
  | .hbm, ⟨30, _⟩ => ⟨S100000x2, .f32⟩
  | .hbm, ⟨31, _⟩ => ⟨S1250000x1, .i32⟩
  | .hbm, ⟨32, _⟩ => ⟨S100000x2, .f32⟩
  | .hbm, ⟨33, _⟩ => ⟨S2x64, .f32⟩
  | .hbm, ⟨34, _⟩ => ⟨S2x64, .f32⟩
  | .hbm, ⟨35, _⟩ => ⟨S_, .i32⟩
  | .hbm, ⟨36, _⟩ => ⟨S_, .f32⟩
  | .hbm, ⟨37, _⟩ => ⟨S104448x2, .f32⟩
  | .hbm, ⟨38, _⟩ => ⟨S_, .i32⟩
  | .hbm, ⟨39, _⟩ => ⟨S_, .f32⟩
  | .hbm, ⟨40, _⟩ => ⟨S104448x1, .f32⟩
  | .hbm, ⟨41, _⟩ => ⟨S_, .i32⟩
  | .hbm, ⟨42, _⟩ => ⟨S_, .f32⟩
  | .hbm, ⟨43, _⟩ => ⟨S104448x2, .f32⟩
  | .hbm, ⟨44, _⟩ => ⟨S104448x64, .bf16⟩
  | .hbm, ⟨45, _⟩ => ⟨S100000x64, .bf16⟩
  | .hbm, ⟨46, _⟩ => ⟨S_, .i32⟩
  | .hbm, ⟨47, _⟩ => ⟨S1250000, .i32⟩
  | .hbm, ⟨48, _⟩ => ⟨S1250000, .i1⟩
  | .hbm, ⟨49, _⟩ => ⟨S_, .i32⟩
  | .hbm, ⟨50, _⟩ => ⟨S1250000, .i32⟩
  | .hbm, ⟨51, _⟩ => ⟨S1250000, .i32⟩
  | .hbm, ⟨52, _⟩ => ⟨S1250000, .i32⟩
  | .hbm, ⟨53, _⟩ => ⟨S1250000x1, .i32⟩
  | .hbm, ⟨54, _⟩ => ⟨S1250000x64, .bf16⟩
  | .hbm, ⟨55, _⟩ => ⟨S1250000x64, .f32⟩
  | .hbm, ⟨56, _⟩ => ⟨S_, .f32⟩
  | .hbm, ⟨57, _⟩ => ⟨S100000x64, .f32⟩
  | .hbm, ⟨58, _⟩ => ⟨S1250000x1, .i32⟩
  | .hbm, ⟨59, _⟩ => ⟨S100000x64, .f32⟩
  | .hbm, ⟨60, _⟩ => ⟨S64x64, .f32⟩
  | .hbm, ⟨61, _⟩ => ⟨S64x64, .f32⟩
  | .hbm, ⟨62, _⟩ => ⟨S_, .i32⟩
  | .hbm, ⟨63, _⟩ => ⟨S_, .f32⟩
  | .hbm, ⟨64, _⟩ => ⟨S104448x64, .f32⟩
  | .hbm, ⟨65, _⟩ => ⟨S_, .i32⟩
  | .hbm, ⟨66, _⟩ => ⟨S_, .f32⟩
  | .hbm, ⟨67, _⟩ => ⟨S104448x1, .f32⟩
  | .hbm, ⟨68, _⟩ => ⟨S_, .i32⟩
  | .hbm, ⟨69, _⟩ => ⟨S_, .bf16⟩
  | .hbm, ⟨70, _⟩ => ⟨S104448x64, .bf16⟩
  | .hbm, ⟨71, _⟩ => ⟨S104448x64, .bf16⟩
  | .hbm, ⟨72, _⟩ => ⟨S100000x64, .bf16⟩
  | .hbm, ⟨73, _⟩ => ⟨S1x500000, .i32⟩
  | .hbm, ⟨74, _⟩ => ⟨S500000, .i32⟩
  | .hbm, ⟨75, _⟩ => ⟨S1x500000, .i32⟩
  | .hbm, ⟨76, _⟩ => ⟨S500000, .i32⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x64, .bf16⟩
  | .hbm, ⟨86, _⟩ => ⟨S500000x64, .f32⟩
  | .hbm, ⟨87, _⟩ => ⟨S_, .i32⟩
  | .hbm, ⟨88, _⟩ => ⟨S500000, .i32⟩
  | .hbm, ⟨89, _⟩ => ⟨S500000, .i1⟩
  | .hbm, ⟨90, _⟩ => ⟨S_, .i32⟩
  | .hbm, ⟨91, _⟩ => ⟨S500000, .i32⟩
  | .hbm, ⟨92, _⟩ => ⟨S500000, .i32⟩
  | .hbm, ⟨93, _⟩ => ⟨S500000, .i32⟩
  | .hbm, ⟨94, _⟩ => ⟨S500000x1, .i32⟩
  | .hbm, ⟨95, _⟩ => ⟨S500000x64, .bf16⟩
  | .hbm, ⟨96, _⟩ => ⟨S500000x64, .f32⟩
  | .hbm, ⟨97, _⟩ => ⟨S500000x64, .f32⟩
  | .hbm, ⟨98, _⟩ => ⟨S_, .f32⟩
  | .hbm, ⟨99, _⟩ => ⟨S500000, .f32⟩
  | .local _ .vmem, ⟨0, _⟩ => ⟨S6144x2, .f32⟩
  | .local _ .vmem, ⟨1, _⟩ => ⟨S6144x2, .f32⟩
  | .local _ .vmem, ⟨2, _⟩ => ⟨S6144x1, .f32⟩
  | .local _ .vmem, ⟨3, _⟩ => ⟨S6144x1, .f32⟩
  | .local _ .vmem, ⟨4, _⟩ => ⟨S6144x2, .f32⟩
  | .local _ .vmem, ⟨5, _⟩ => ⟨S6144x2, .f32⟩
  | .local _ .vmem, ⟨6, _⟩ => ⟨S2x64, .f32⟩
  | .local _ .vmem, ⟨7, _⟩ => ⟨S64, .f32⟩
  | .local _ .vmem, ⟨8, _⟩ => ⟨S2x64, .f32⟩
  | .local _ .vmem, ⟨9, _⟩ => ⟨S6144x64, .bf16⟩
  | .local _ .vmem, ⟨10, _⟩ => ⟨S6144x64, .bf16⟩
  | .local _ .vmem, ⟨11, _⟩ => ⟨S6144x64, .f32⟩
  | .local _ .vmem, ⟨12, _⟩ => ⟨S6144x64, .f32⟩
  | .local _ .vmem, ⟨13, _⟩ => ⟨S6144x1, .f32⟩
  | .local _ .vmem, ⟨14, _⟩ => ⟨S6144x1, .f32⟩
  | .local _ .vmem, ⟨15, _⟩ => ⟨S6144x64, .bf16⟩
  | .local _ .vmem, ⟨16, _⟩ => ⟨S6144x64, .bf16⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S6144x64, .bf16⟩
  | .local _ .vmem, ⟨21, _⟩ => ⟨S6144x64, .bf16⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_call0_v0 : Ref sig .tc := ⟨.hbm, 36, rfl⟩
abbrev main_v21 : Ref sig .tc := ⟨.hbm, 37, rfl⟩
abbrev main_c_4 : Ref sig .tc := ⟨.hbm, 38, rfl⟩
abbrev main_call1_v0 : Ref sig .tc := ⟨.hbm, 39, rfl⟩
abbrev main_v22 : Ref sig .tc := ⟨.hbm, 40, rfl⟩
abbrev main_c_5 : Ref sig .tc := ⟨.hbm, 41, rfl⟩
abbrev main_call2_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_call3_v0 : Ref sig .tc := ⟨.hbm, 63, rfl⟩
abbrev main_v39 : Ref sig .tc := ⟨.hbm, 64, rfl⟩
abbrev main_c_10 : Ref sig .tc := ⟨.hbm, 65, rfl⟩
abbrev main_call4_v0 : Ref sig .tc := ⟨.hbm, 66, rfl⟩
abbrev main_v40 : Ref sig .tc := ⟨.hbm, 67, rfl⟩
abbrev main_c_11 : Ref sig .tc := ⟨.hbm, 68, rfl⟩
abbrev main_call5_v0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_c_13 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_14 : Ref sig .tc := ⟨.hbm, 87, rfl⟩
abbrev main_v56 : Ref sig .tc := ⟨.hbm, 88, rfl⟩
abbrev main_v57 : Ref sig .tc := ⟨.hbm, 89, rfl⟩
abbrev main_c_15 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_16 : Ref sig .tc := ⟨.hbm, 98, rfl⟩
abbrev main_v65 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6144x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6144x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6144x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6144x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6144x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6144x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6144x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x2 : S_.BroadcastsInDim S100000x2 (![] : Fin 0 → Fin S100000x2.rank)
  transposes_S64x2_S2x64_1_0 : S64x2.Transposes [1, 0] S2x64
  pads_S100000x2_S104448x2_044480_000 : S100000x2.Pads (![0, 0] : Fin 2 → Nat) ![4448, 0] ![0, 0] S104448x2
  h_S_ : 0 < S_.numel
  pads_S100000x1_S104448x1_044480_000 : S100000x1.Pads (![0, 0] : Fin 2 → Nat) ![4448, 0] ![0, 0] S104448x1
  inb_S6144x2_S6144x2_0_0 : ∀ a, (![0, 0] : Fin 2 → Nat) a + S6144x2.size a ≤ S6144x2.size a
  h_S6144x2 : 0 < S6144x2.numel
  shapeCasts_S6144x2_S6144x2 : S6144x2.ShapeCasts S6144x2
  inb_S6144x1_S6144x1_0_0 : ∀ a, (![0, 0] : Fin 2 → Nat) a + S6144x1.size a ≤ S6144x1.size a
  h_S6144x1 : 0 < S6144x1.numel
  shapeCasts_S6144x1_S6144x1 : S6144x1.ShapeCasts S6144x1
  broadcasts_S6144x1_S6144x2 : S6144x1.Broadcasts S6144x2
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  shapeCasts_S2x64_S2x64 : S2x64.ShapeCasts S2x64
  inb_S64_S64_0 : ∀ a, (![0] : Fin 1 → Nat) a + S64.size a ≤ S64.size a
  h_S64 : 0 < S64.numel
  shapeCasts_S64_S1x64 : S64.ShapeCasts S1x64
  broadcasts_S1x64_S6144x64 : S1x64.Broadcasts S6144x64
  inb_S6144x64_S6144x64_0_0 : ∀ a, (![0, 0] : Fin 2 → Nat) a + S6144x64.size a ≤ S6144x64.size a
  h_S6144x64 : 0 < S6144x64.numel
  packedbf16_S6144x64_S6144x64_0_0 : (Rect.unit (s := S6144x64) ![0, 0] S6144x64.size inb_S6144x64_S6144x64_0_0).PackedRows (EltTy.packing .bf16)
  slices_S104448x64_S100000x64_0_0 : S104448x64.Slices ![0, 0] S100000x64
  bcast_S_S100000x64 : S_.BroadcastsInDim S100000x64 (![] : Fin 0 → Fin S100000x64.rank)
  transposes_S64x64_S64x64_1_0 : S64x64.Transposes [1, 0] S64x64
  pads_S100000x64_S104448x64_044480_000 : S100000x64.Pads (![0, 0] : Fin 2 → Nat) ![4448, 0] ![0, 0] S104448x64
  shapeCasts_S6144x64_S6144x64 : S6144x64.ShapeCasts S6144x64
  broadcasts_S6144x1_S6144x64 : S6144x1.Broadcasts S6144x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  scatter_S100000_S1250000x1_S1250000_n_0_0_1_wf : ScatterDims.WF S100000 S1250000x1 S1250000 [] [0] [0] 1
  gather_S100000x2_S1250000x1_S1250000x2_1_0_n_n_0_1_12_wf : GatherDims.WF S100000x2 S1250000x1 S1250000x2 [1] [0] [] [0] [] 1 ![1, 2]
  scatter_S100000x2_S1250000x1_S1250000x2_1_0_0_1_wf : ScatterDims.WF S100000x2 S1250000x1 S1250000x2 [1] [0] [0] 1
  dot_S6144x2_S2x64_S6144x64_1_0_0_1_n_n_wf : DotDims.WF S6144x2 S2x64 S6144x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S6144x64_S64x64_S6144x64_1_0_0_1_n_n_wf : DotDims.WF S6144x64 S64x64 S6144x64 [1] [0] [0] [1] [] []
  gather_S100000x64_S500000x1_S500000x64_1_0_n_n_0_1_164_wf : GatherDims.WF S100000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6144x2.size a ≤ S104448x2.size a
  hwx0_0 : ∀ i : grid0.Coords, EltTy.bits .f32 = 32 ∨ (Rect.block (s := S104448x2) S6144x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6144x1.size a ≤ S104448x1.size a
  hwx0_1 : ∀ i : grid0.Coords, EltTy.bits .f32 = 32 ∨ (Rect.block (s := S104448x1) S6144x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6144x2.size a ≤ S104448x2.size a
  hwx0_2 : ∀ i : grid0.Coords, EltTy.bits .f32 = 32 ∨ (Rect.block (s := S104448x2) S6144x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .f32 = 32 ∨ (Rect.block (s := S2x64) S2x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6144x64.size a ≤ S104448x64.size a
  hwx0_6 : ∀ i : grid0.Coords, EltTy.bits .bf16 = 32 ∨ (Rect.block (s := S104448x64) S6144x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6144x64.size a ≤ S104448x64.size a
  hwx1_0 : ∀ i : grid1.Coords, EltTy.bits .f32 = 32 ∨ (Rect.block (s := S104448x64) S6144x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6144x1.size a ≤ S104448x1.size a
  hwx1_1 : ∀ i : grid1.Coords, EltTy.bits .f32 = 32 ∨ (Rect.block (s := S104448x1) S6144x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6144x64.size a ≤ S104448x64.size a
  hwx1_2 : ∀ i : grid1.Coords, EltTy.bits .bf16 = 32 ∨ (Rect.block (s := S104448x64) S6144x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6144x64.size a ≤ S104448x64.size a
  hwx1_6 : ∀ i : grid1.Coords, EltTy.bits .bf16 = 32 ∨ (Rect.block (s := S104448x64) S6144x64.size (cc1_transform_6 i) (hinb1_6 i)).WholeWords (EltTy.packing .bf16)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x2_S1250000x1_S1250000x2_1_0_n_n_0_1_12 : GatherDims S100000x2 S1250000x1 S1250000x2 where
  offsetDims := [1]
  collapsedSliceDims := [0]
  operandBatchingDims := []
  startIndicesBatchingDims := []
  startIndexMap := [0]
  indexVectorDim := 1
  sliceSizes := ![1, 2]
  wf := gather_S100000x2_S1250000x1_S1250000x2_1_0_n_n_0_1_12_wf
def scatter_S100000x2_S1250000x1_S1250000x2_1_0_0_1 : ScatterDims S100000x2 S1250000x1 S1250000x2 where
  updateWindowDims := [1]
  insertedWindowDims := [0]
  scatterDimsToOperandDims := [0]
  indexVectorDim := 1
  wf := scatter_S100000x2_S1250000x1_S1250000x2_1_0_0_1_wf
def dot_S6144x2_S2x64_S6144x64_1_0_0_1_n_n : DotDims S6144x2 S2x64 S6144x64 where
  lhsContracting := [1]
  rhsContracting := [0]
  lhsNonContracting := [0]
  rhsNonContracting := [1]
  lhsBatch := []
  rhsBatch := []
  wf := dot_S6144x2_S2x64_S6144x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S6144x64_S64x64_S6144x64_1_0_0_1_n_n : DotDims S6144x64 S64x64 S6144x64 where
  lhsContracting := [1]
  rhsContracting := [0]
  lhsNonContracting := [0]
  rhsNonContracting := [1]
  lhsBatch := []
  rhsBatch := []
  wf := dot_S6144x64_S64x64_S6144x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

abbrev win0_0 : Pipeline.Window sig grid0 :=
  Pipeline.Window.ofSpec (Memref.whole main_v21) S6144x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S6144x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S6144x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S6144x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S6144x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S6144x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S6144x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S6144x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x1250000 : Shape := ⟨2, ![2, 1250000]⟩
abbrev S2x500000 : Shape := ⟨2, ![2, 500000]⟩
abbrev S64x2 : Shape := ⟨2, ![64, 2]⟩
abbrev S64 : Shape := ⟨1, ![64]⟩
abbrev S64x64 : Shape := ⟨2, ![64, 64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x2 : Shape := ⟨2, ![1250000, 2]⟩
abbrev S100000 : Shape := ⟨1, ![100000]⟩
abbrev S100000x1 : Shape := ⟨2, ![100000, 1]⟩
abbrev S2x64 : Shape := ⟨2, ![2, 64]⟩
abbrev S100000x64 : Shape := ⟨2, ![100000, 64]⟩
abbrev S1x64 : Shape := ⟨2, ![1, 64]⟩
abbrev S1250000x64 : Shape := ⟨2, ![1250000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 107
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x1250000, .i32⟩
  | .hbm, ⟨2, _⟩ => ⟨S2x500000, .i32⟩
  | .hbm, ⟨3, _⟩ => ⟨S64x2, .f32⟩
  | .hbm, ⟨4, _⟩ => ⟨S64, .f32⟩
  | .hbm, ⟨5, _⟩ => ⟨S64x2, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x2, .f32⟩
  | .hbm, ⟨22, _⟩ => ⟨S_, .f32⟩
  | .hbm, ⟨23, _⟩ => ⟨S100000x2, .f32⟩
  | .hbm, ⟨24, _⟩ => ⟨S1250000x1, .i32⟩
  | .hbm, ⟨25, _⟩ => ⟨S100000x2, .f32⟩
  | .hbm, ⟨26, _⟩ => ⟨S_, .f32⟩
  | .hbm, ⟨27, _⟩ => ⟨S1250000, .f32⟩
  | .hbm, ⟨28, _⟩ => ⟨S_, .f32⟩
  | .hbm, ⟨29, _⟩ => ⟨S100000, .f32⟩
  | .hbm, ⟨30, _⟩ => ⟨S1250000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x2, .f32⟩
  | .hbm, ⟨37, _⟩ => ⟨S100000x2, .f32⟩
  | .hbm, ⟨38, _⟩ => ⟨S2x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S2x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1250000, .i32⟩
  | .hbm, ⟨51, _⟩ => ⟨S1250000, .i1⟩
  | .hbm, ⟨52, _⟩ => ⟨S_, .i32⟩
  | .hbm, ⟨53, _⟩ => ⟨S1250000, .i32⟩
  | .hbm, ⟨54, _⟩ => ⟨S1250000, .i32⟩
  | .hbm, ⟨55, _⟩ => ⟨S1250000, .i32⟩
  | .hbm, ⟨56, _⟩ => ⟨S1250000x1, .i32⟩
  | .hbm, ⟨57, _⟩ => ⟨S1250000x64, .f32⟩
  | .hbm, ⟨58, _⟩ => ⟨S_, .f32⟩
  | .hbm, ⟨59, _⟩ => ⟨S100000x64, .f32⟩
  | .hbm, ⟨60, _⟩ => ⟨S1250000x1, .i32⟩
  | .hbm, ⟨61, _⟩ => ⟨S100000x64, .f32⟩
  | .hbm, ⟨62, _⟩ => ⟨S_, .f32⟩
  | .hbm, ⟨63, _⟩ => ⟨S1250000, .f32⟩
  | .hbm, ⟨64, _⟩ => ⟨S_, .f32⟩
  | .hbm, ⟨65, _⟩ => ⟨S100000, .f32⟩
  | .hbm, ⟨66, _⟩ => ⟨S1250000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S64x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S64x64, .f32⟩
  | .hbm, ⟨80, _⟩ => ⟨S100000x64, .f32⟩
  | .hbm, ⟨81, _⟩ => ⟨S100000x64, .f32⟩
  | .hbm, ⟨82, _⟩ => ⟨S1x500000, .i32⟩
  | .hbm, ⟨83, _⟩ => ⟨S500000, .i32⟩
  | .hbm, ⟨84, _⟩ => ⟨S1x500000, .i32⟩
  | .hbm, ⟨85, _⟩ => ⟨S500000, .i32⟩
  | .hbm, ⟨86, _⟩ => ⟨S_, .i32⟩
  | .hbm, ⟨87, _⟩ => ⟨S500000, .i32⟩
  | .hbm, ⟨88, _⟩ => ⟨S500000, .i1⟩
  | .hbm, ⟨89, _⟩ => ⟨S_, .i32⟩
  | .hbm, ⟨90, _⟩ => ⟨S500000, .i32⟩
  | .hbm, ⟨91, _⟩ => ⟨S500000, .i32⟩
  | .hbm, ⟨92, _⟩ => ⟨S500000, .i32⟩
  | .hbm, ⟨93, _⟩ => ⟨S500000x1, .i32⟩
  | .hbm, ⟨94, _⟩ => ⟨S500000x64, .f32⟩
  | .hbm, ⟨95, _⟩ => ⟨S_, .i32⟩
  | .hbm, ⟨96, _⟩ => ⟨S500000, .i32⟩
  | .hbm, ⟨97, _⟩ => ⟨S500000, .i1⟩
  | .hbm, ⟨98, _⟩ => ⟨S_, .i32⟩
  | .hbm, ⟨99, _⟩ => ⟨S500000, .i32⟩
  | .hbm, ⟨100, _⟩ => ⟨S500000, .i32⟩
  | .hbm, ⟨101, _⟩ => ⟨S500000, .i32⟩
  | .hbm, ⟨102, _⟩ => ⟨S500000x1, .i32⟩
  | .hbm, ⟨103, _⟩ => ⟨S500000x64, .f32⟩
  | .hbm, ⟨104, _⟩ => ⟨S500000x64, .f32⟩
  | .hbm, ⟨105, _⟩ => ⟨S_, .f32⟩
  | .hbm, ⟨106, _⟩ => ⟨S500000, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_10 : Ref sig .tc := ⟨.hbm, 86, rfl⟩
abbrev main_v63 : Ref sig .tc := ⟨.hbm, 87, rfl⟩
abbrev main_v64 : Ref sig .tc := ⟨.hbm, 88, rfl⟩
abbrev main_c_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  transposes_S64x2_S2x64_1_0 : S64x2.Transposes [1, 0] S2x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  gather_S100000x2_S1250000x1_S1250000x2_1_0_n_n_0_1_12_wf : GatherDims.WF S100000x2 S1250000x1 S1250000x2 [1] [0] [] [0] [] 1 ![1, 2]
  scatter_S100000x2_S1250000x1_S1250000x2_1_0_0_1_wf : ScatterDims.WF S100000x2 S1250000x1 S1250000x2 [1] [0] [0] 1
  scatter_S100000_S1250000x1_S1250000_n_0_0_1_wf : ScatterDims.WF S100000 S1250000x1 S1250000 [] [0] [0] 1
  dot_S100000x2_S2x64_S100000x64_1_0_0_1_n_n_wf : DotDims.WF S100000x2 S2x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]

variable [Facts₀]

def gather_S100000x2_S1250000x1_S1250000x2_1_0_n_n_0_1_12 : GatherDims S100000x2 S1250000x1 S1250000x2 where
  offsetDims := [1]
  collapsedSliceDims := [0]
  operandBatchingDims := []
  startIndicesBatchingDims := []
  startIndexMap := [0]
  indexVectorDim := 1
  sliceSizes := ![1, 2]
  wf := gather_S100000x2_S1250000x1_S1250000x2_1_0_n_n_0_1_12_wf
def scatter_S100000x2_S1250000x1_S1250000x2_1_0_0_1 : ScatterDims S100000x2 S1250000x1 S1250000x2 where
  updateWindowDims := [1]
  insertedWindowDims := [0]
  scatterDimsToOperandDims := [0]
  indexVectorDim := 1
  wf := scatter_S100000x2_S1250000x1_S1250000x2_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

class Facts : Prop extends Facts₀ where

variable [Facts]
-- ==== Proof.RunResult.lean ====
/-
  The kernel program's run with its result named.

  @main is fifteen segments — stretches of host operations and the two launches — and the buffers' contents at each
  segment boundary are a fold from the launch memory. Every weakly fair execution terminates without a fault; at the end
  the result array holds what the last boundary's contents say it holds, and the argument arrays are as launched.
-/
import proofs.«162650_j81441169866891_2_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v65) = W15 m ρ c (Proc.devRef .tc main_v65) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v65 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.RunResult

end
-- ==== Proof.LayerEntry.lean ====
/-
  One entry of a mean-aggregation graph layer, on the extended reals.

  For a node and an output feature, with `a` the row of summed neighbour features, `d` the node's in-degree, `x` the
  node's own features, `wl` / `wr` the two weight matrices' rows for that output feature and `b` the bias entry:

      ( ∑ₖ (a k / max d 1) · wl k  +  b )  +  ∑ₖ x k · wr k .

  Both programs compute exactly this expression, in this grouping, so no law of arithmetic is needed to join them:
  only the bookkeeping of which array entry each operand is.
-/
import Idealize.ShloMosaic.PureOps.Ideal

noncomputable section

open scoped BigOperators

namespace Cert.LayerEntry

open Idealize.ShloMosaic

/-- The mean of the neighbours' features projected by `wl`, plus the bias, plus the node's own features projected by `wr`.
    The divisor is the in-degree clamped below at one (the word 0x3F800000 is the float 1). -/
def denseAt {f : Nat} (a x : Fin f → EReal) (d : EReal) (wl wr : Fin f → EReal) (b : EReal) : EReal :=
  ((∑ k : Fin f, Ideal.div (a k) (max d (Ideal.ofBits .f32 0x3F800000#32)) * wl k) + b) + ∑ k : Fin f, x k * wr k

end Cert.LayerEntry

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.DenseBody.lean ====
/-
  The two kernel bodies read at an entry of their output block.

  For a row `p` of the block and an output feature `q` the first body computes the layer's entry (`LayerEntry.denseAt`)
  of row `p` of its three row-tiled blocks and column `q` of its two weight blocks, clamped below at zero; the second body
  the same without the clamp. The changes of float format in the bodies are the identity on the extended reals, and each
  matrix product into a zero accumulator is the plain sum over the contracted coordinate.
-/
import proofs.«162650_j81441169866891_2_alg».proof.Proof.Gen.KernelIdeal.Skeleton
import proofs.«162650_j81441169866891_2_alg».proof.Proof.LayerEntry
import proofs.«162650_j81441169866891_2_alg».proof.Proof.LibPlainMatmul
import proofs.«162650_j81441169866891_2_alg».proof.Proof.LibKeepdims
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.DenseBody

open Cert.KernelIdeal Cert.KernelIdeal.Gen Cert.LayerEntry Idealize.ShloMosaic Idealize.ShloMosaic.ValueIdx

/-- The first layer's body at row `p`, feature `q`: the layer's entry clamped below at zero. -/
theorem body0_apply (v0 : Vec Ideal S6144x2 .f32) (v2 : Vec Ideal S6144x1 .f32) (v9 : Vec Ideal S2x64 .f32)
    (v13 : Vec Ideal S64 .f32) (v17 : Vec Ideal S6144x2 .f32) (v20 : Vec Ideal S2x64 .f32) (p : Fin 6144) (q : Fin 64) :
    k0_pay1 (F := Ideal) v0 v2 v9 v13 v17 v20 (ix2 p q)
      = max (denseAt (fun k => v0 (ix2 p k)) (fun k => v17 (ix2 p k)) (v2 (ix2 p 0)) (fun k => v9 (ix2 k q))
          (fun k => v20 (ix2 k q)) (v13 (ix1 q))) (Ideal.ofBits .f32 0x00000000#32) := by
  unfold k0_pay1 denseAt
  simp only [shapeCast_self]
  rw [truncf_apply, maximumf_apply, addf_apply, addf_apply, broadcast_apply,
    show dot_S6144x2_S2x64_S6144x64_1_0_0_1_n_n = DotDims.plain 6144 2 64 from rfl,
    PlainMatmul.plainMatmul_apply, PlainMatmul.plainMatmul_apply,
    broadcastTo_1b_ab_apply, shapeCast_a_1a_apply]
  simp only [truncf_apply, divf_apply, Keepdims.bcast_col_apply, maximumf_apply, broadcast_apply]
  rfl

/-- The second layer's body at row `p`, feature `q`: the layer's entry. -/
theorem body1_apply (v0 : Vec Ideal S6144x64 .f32) (v2 : Vec Ideal S6144x1 .f32) (v9 : Vec Ideal S64x64 .f32)
    (v13 : Vec Ideal S64 .f32) (v17 : Vec Ideal S6144x64 .bf16) (v19 : Vec Ideal S64x64 .f32) (p : Fin 6144) (q : Fin 64) :
    k1_pay1 (F := Ideal) v0 v2 v9 v13 v17 v19 (ix2 p q)
      = denseAt (fun k => v0 (ix2 p k)) (fun k => v17 (ix2 p k)) (v2 (ix2 p 0)) (fun k => v9 (ix2 k q))
          (fun k => v19 (ix2 k q)) (v13 (ix1 q)) := by
  unfold k1_pay1 denseAt
  simp only [shapeCast_self]
  rw [truncf_apply, addf_apply, addf_apply,
    show dot_S6144x64_S64x64_S6144x64_1_0_0_1_n_n = DotDims.plain 6144 64 64 from rfl,
    PlainMatmul.plainMatmul_apply, PlainMatmul.plainMatmul_apply,
    broadcastTo_1b_ab_apply, shapeCast_a_1a_apply]
  simp only [truncf_apply, divf_apply, Keepdims.bcast_col_apply, maximumf_apply, broadcast_apply]
  rfl

end Cert.KernelIdeal.DenseBody

end
-- ==== Proof.Layer0.lean ====
/-
  What the first launch leaves in its output array, as one function of the arrays it finds at its entry.

  The launch walks 17 blocks of 6144 rows. At block `t` the body reads rows `6144·t … 6144·t + 6143` of the summed
  neighbour features, of the in-degree column and of the nodes' own features, reads the two weight matrices and the bias
  whole, and writes the same rows of the output. Row `r`, feature `q` of the output therefore depends only on row `r` of
  the three row-tiled inputs: it is the layer's entry, clamped below at zero (`LayerEntry.denseAt`). The 17 blocks tile all 104448 rows, so the
  whole output array is that function.
-/
import proofs.«162650_j81441169866891_2_alg».proof.Proof.Gen.KernelIdeal.Frame
import proofs.«162650_j81441169866891_2_alg».proof.Proof.DenseBody

set_option maxRecDepth 16384

noncomputable section

namespace Cert.KernelIdeal.Layer0

open Cert.KernelIdeal Cert.KernelIdeal.Gen Cert.KernelIdeal.DenseBody Cert.LayerEntry
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer's entry for node `r` and feature `q`, from whole arrays: row `r` of the summed neighbour features `A`, of
    the in-degree column `D` and of the nodes' own features `X`; column `q` of the two weight matrices; entry `q` of the bias. -/
def layerAt {n : Nat} (A : (⟨2, ![n, 2]⟩ : Shape).Idx → EReal) (D : (⟨2, ![n, 1]⟩ : Shape).Idx → EReal)
    (X : (⟨2, ![n, 2]⟩ : Shape).Idx → EReal) (Wl : S2x64.Idx → EReal) (b : S64.Idx → EReal) (Wr : S2x64.Idx → EReal)
    (r : Fin n) (q : Fin 64) : EReal :=
  denseAt (fun k => A (ix2 r k)) (fun k => X (ix2 r k)) (D (ix2 r 0)) (fun k => Wl (ix2 k q)) (fun k => Wr (ix2 k q)) (b (ix1 q))

/-- The launch's output array, all 104448 rows. -/
def G (A : S104448x2.Idx → EReal) (D : S104448x1.Idx → EReal) (X : S104448x2.Idx → EReal) (Wl : S2x64.Idx → EReal)
    (b : S64.Idx → EReal) (Wr : S2x64.Idx → EReal) : S104448x64.Idx → EReal := fun i =>
  max (layerAt A D X Wl b Wr ⟨(i 0).val, (i 0).isLt⟩ ⟨(i 1).val, (i 1).isLt⟩) (Ideal.ofBits .f32 0x00000000#32)

/-- The printed index maps over the grid: the three row-tiled inputs and the output sit at block row `t`, block column 0;
    the weights and the bias at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of `G` of the entry arrays. -/
theorem flushed_eq (c : Dev nD) (t : Fin cfg0.N) :
    (dat0 V c).flushed 6 t = ((cfg0.win 6).blk t).view.read (Elt Ideal)
      (G (V c main_v21) (V c main_v22) (V c main_v23) (V c main_v19) (V c main_arg4) (V c main_v20)) := by
  show (cfg0.win 6).cut (grid0.coords t) ((dat0 V c).after 6 t) = _
  rw [after0_6]
  unfold out0_6
  rw [View.canon_unit_zero hz2]
  simp only [View.ld_unit_zero (S := S6144x2) hz2, View.ld_unit_zero (S := S6144x1) hz2, View.ld_unit_zero (S := S2x64) hz2, View.ld_unit_zero (S := S64) hz1]
  obtain ⟨e00, e01, e10, e11, e20, e21, e30, e31, e40, e50, e51, e60, e61⟩ := idx_facts t
  funext j
  obtain ⟨p, q, rfl⟩ : ∃ (p : Fin 6144) (q : Fin 64), j = ix2 p q := ⟨j 0, j 1, eq_ix2 j⟩
  show k0_pay1 (iblk0 V c 0 t) (iblk0 V c 1 t) (iblk0 V c 3 t) (iblk0 V c 4 t) (iblk0 V c 2 t) (iblk0 V c 5 t) (ix2 p q)
    = G (V c main_v21) (V c main_v22) (V c main_v23) (V c main_v19) (V c main_arg4) (V c main_v20) (((cfg0.win 6).blk t).view.emb (ix2 p q))
  rw [body0_apply]
  have ht : t.val < 17 := lt_of_lt_of_eq t.isLt N_0
  have hp := p.isLt
  have hq := q.isLt
  let R : Fin 104448 := ⟨t.val * 6144 + p.val, by omega⟩
  have e6 : ((cfg0.win 6).blk t).view.emb (ix2 p q) = (ix2 R q : S104448x64.Idx) := funext fun a => Fin.ext (by
    match a with
    | ⟨0, _⟩ => show win0_6.index t (0 : Fin 2) * 6144 + 1 * p.val = t.val * 6144 + p.val; omega
    | ⟨1, _⟩ => show win0_6.index t (1 : Fin 2) * 64 + 1 * q.val = q.val; omega)
  have eA : ∀ k : Fin 2, iblk0 V c 0 t (ix2 p k) = V c main_v21 (ix2 R k : S104448x2.Idx) := fun k =>
    congrArg (V c main_v21) (funext fun a => Fin.ext (by
      have hk := k.isLt
      match a with
      | ⟨0, _⟩ => show win0_0.index t (0 : Fin 2) * 6144 + 1 * p.val = t.val * 6144 + p.val; omega
      | ⟨1, _⟩ => show win0_0.index t (1 : Fin 2) * 2 + 1 * k.val = k.val; omega))
  have eD : iblk0 V c 1 t (ix2 p 0) = V c main_v22 (ix2 R 0 : S104448x1.Idx) :=
    congrArg (V c main_v22) (funext fun a => Fin.ext (by
      match a with
      | ⟨0, _⟩ => show win0_1.index t (0 : Fin 2) * 6144 + 1 * p.val = t.val * 6144 + p.val; omega
      | ⟨1, _⟩ => show win0_1.index t (1 : Fin 2) * 1 + 1 * 0 = 0; omega))
  have eX : ∀ k : Fin 2, iblk0 V c 2 t (ix2 p k) = V c main_v23 (ix2 R k : S104448x2.Idx) := fun k =>
    congrArg (V c main_v23) (funext fun a => Fin.ext (by
      have hk := k.isLt
      match a with
      | ⟨0, _⟩ => show win0_2.index t (0 : Fin 2) * 6144 + 1 * p.val = t.val * 6144 + p.val; omega
      | ⟨1, _⟩ => show win0_2.index t (1 : Fin 2) * 2 + 1 * k.val = k.val; omega))
  have eWl : ∀ k : Fin 2, iblk0 V c 3 t (ix2 k q) = V c main_v19 (ix2 k q : S2x64.Idx) := fun k =>
    congrArg (V c main_v19) (funext fun a => Fin.ext (by
      have hk := k.isLt
      match a with
      | ⟨0, _⟩ => show win0_3.index t (0 : Fin 2) * 2 + 1 * k.val = k.val; omega
      | ⟨1, _⟩ => show win0_3.index t (1 : Fin 2) * 64 + 1 * q.val = q.val; omega))
  have eb : iblk0 V c 4 t (ix1 q) = V c main_arg4 (ix1 q : S64.Idx) :=
    congrArg (V c main_arg4) (funext fun a => Fin.ext (by
      match a with
      | ⟨0, _⟩ => show win0_4.index t (0 : Fin 1) * 64 + 1 * q.val = q.val; omega))
  have eWr : ∀ k : Fin 2, iblk0 V c 5 t (ix2 k q) = V c main_v20 (ix2 k q : S2x64.Idx) := fun k =>
    congrArg (V c main_v20) (funext fun a => Fin.ext (by
      have hk := k.isLt
      match a with
      | ⟨0, _⟩ => show win0_5.index t (0 : Fin 2) * 2 + 1 * k.val = k.val; omega
      | ⟨1, _⟩ => show win0_5.index t (1 : Fin 2) * 64 + 1 * q.val = q.val; omega))
  rw [e6]
  simp only [eA, eD, eX, eWl, eb, eWr]
  rfl

/-- An index of the output array is in point `t`'s block iff each coordinate is in the block's range on its axis. -/
theorem mem_blk (t : Fin cfg0.N) (i : S104448x64.Idx) :
    i ∈ ((cfg0.win 6).blk t).view.set ↔ ∀ a : Fin 2, win0_6.index t a * S6144x64.size a ≤ (i a).val
      ∧ (i a).val < win0_6.index t a * S6144x64.size a + S6144x64.size a := by
  show i ∈ ((View.whole main_v24).slice (win0_6.rect t)).set ↔ _
  rw [View.set_slice_whole, Rect.mem_set_unit]
  exact Iff.rfl

/-- Every row of the output lies in the block of the point `row / 6144`: the 17 blocks tile the array. -/
theorem cover (i : S104448x64.Idx) :
    ∃ t : Fin cfg0.N, (cfg0.win 6).flush t = true ∧ i ∈ ((cfg0.win 6).blk t).view.set := by
  have hi0 : (i 0).val < 104448 := (i 0).isLt
  have hi1 : (i 1).val < 64 := (i 1).isLt
  have hN : (i 0).val / 6144 < cfg0.N := lt_of_lt_of_eq (by omega : (i 0).val / 6144 < 17) N_0.symm
  refine ⟨⟨(i 0).val / 6144, hN⟩, flush0_6 _, ?_⟩
  rw [mem_blk]
  obtain ⟨e00, e01, e10, e11, e20, e21, e30, e31, e40, e50, e51, e60, e61⟩ := idx_facts ⟨(i 0).val / 6144, hN⟩
  intro a
  match a with
  | ⟨0, _⟩ =>
    show win0_6.index ⟨(i 0).val / 6144, hN⟩ (0 : Fin 2) * 6144 ≤ (i 0).val
      ∧ (i 0).val < win0_6.index ⟨(i 0).val / 6144, hN⟩ (0 : Fin 2) * 6144 + 6144
    rw [e60]
    show (i 0).val / 6144 * 6144 ≤ (i 0).val ∧ (i 0).val < (i 0).val / 6144 * 6144 + 6144
    omega
  | ⟨1, _⟩ =>
    show win0_6.index ⟨(i 0).val / 6144, hN⟩ (1 : Fin 2) * 64 ≤ (i 1).val
      ∧ (i 1).val < win0_6.index ⟨(i 0).val / 6144, hN⟩ (1 : Fin 2) * 64 + 64
    rw [e61]
    omega

/-- The output array after the launch: `G` of the arrays the launch found. -/
theorem final (c : Dev nD) : (dat0 V c).arrAt 6 cfg0.N
    = G (V c main_v21) (V c main_v22) (V c main_v23) (V c main_v19) (V c main_arg4) (V c main_v20) :=
  (dat0 V c).arrAt_eq_of_cover 6 _ (fun t _ => flushed_eq V c t) cover

end Cert.KernelIdeal.Layer0

end
-- ==== Proof.Layer1.lean ====
/-
  What the second launch leaves in its output array, as one function of the arrays it finds at its entry.

  The launch walks 17 blocks of 6144 rows. At block `t` the body reads rows `6144·t … 6144·t + 6143` of the summed
  neighbour features, of the in-degree column and of the nodes' own features, reads the two weight matrices and the bias
  whole, and writes the same rows of the output. Row `r`, feature `q` of the output therefore depends only on row `r` of
  the three row-tiled inputs: it is the layer's entry (`LayerEntry.denseAt`). The 17 blocks tile all 104448 rows, so the
  whole output array is that function.
-/
import proofs.«162650_j81441169866891_2_alg».proof.Proof.Gen.KernelIdeal.Frame
import proofs.«162650_j81441169866891_2_alg».proof.Proof.DenseBody

set_option maxRecDepth 16384

noncomputable section

namespace Cert.KernelIdeal.Layer1

open Cert.KernelIdeal Cert.KernelIdeal.Gen Cert.KernelIdeal.DenseBody Cert.LayerEntry
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer's entry for node `r` and feature `q`, from whole arrays: row `r` of the summed neighbour features `A`, of
    the in-degree column `D` and of the nodes' own features `X`; column `q` of the two weight matrices; entry `q` of the bias. -/
def layerAt {n : Nat} (A : (⟨2, ![n, 64]⟩ : Shape).Idx → EReal) (D : (⟨2, ![n, 1]⟩ : Shape).Idx → EReal)
    (X : (⟨2, ![n, 64]⟩ : Shape).Idx → EReal) (Wl : S64x64.Idx → EReal) (b : S64.Idx → EReal) (Wr : S64x64.Idx → EReal)
    (r : Fin n) (q : Fin 64) : EReal :=
  denseAt (fun k => A (ix2 r k)) (fun k => X (ix2 r k)) (D (ix2 r 0)) (fun k => Wl (ix2 k q)) (fun k => Wr (ix2 k q)) (b (ix1 q))

/-- The launch's output array, all 104448 rows. -/
def G (A : S104448x64.Idx → EReal) (D : S104448x1.Idx → EReal) (X : S104448x64.Idx → EReal) (Wl : S64x64.Idx → EReal)
    (b : S64.Idx → EReal) (Wr : S64x64.Idx → EReal) : S104448x64.Idx → EReal := fun i =>
  layerAt A D X Wl b Wr ⟨(i 0).val, (i 0).isLt⟩ ⟨(i 1).val, (i 1).isLt⟩

/-- The printed index maps over the grid: the three row-tiled inputs and the output sit at block row `t`, block column 0;
    the weights and the bias at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of `G` of the entry arrays. -/
theorem flushed_eq (c : Dev nD) (t : Fin cfg1.N) :
    (dat1 V c).flushed 6 t = ((cfg1.win 6).blk t).view.read (Elt Ideal)
      (G (V c main_v39) (V c main_v40) (V c main_v41) (V c main_v37) (V c main_arg7) (V c main_v38)) := by
  show (cfg1.win 6).cut (grid1.coords t) ((dat1 V c).after 6 t) = _
  rw [after1_6]
  unfold out1_6
  rw [View.canon_unit_zero hz2]
  simp only [View.ld_unit_zero (S := S6144x64) hz2, View.ld_unit_zero (S := S6144x1) hz2, View.ld_unit_zero (S := S64x64) hz2, View.ld_unit_zero (S := S64) hz1]
  obtain ⟨e00, e01, e10, e11, e20, e21, e30, e31, e40, e50, e51, e60, e61⟩ := idx_facts t
  funext j
  obtain ⟨p, q, rfl⟩ : ∃ (p : Fin 6144) (q : Fin 64), j = ix2 p q := ⟨j 0, j 1, eq_ix2 j⟩
  show k1_pay1 (iblk1 V c 0 t) (iblk1 V c 1 t) (iblk1 V c 3 t) (iblk1 V c 4 t) (iblk1 V c 2 t) (iblk1 V c 5 t) (ix2 p q)
    = G (V c main_v39) (V c main_v40) (V c main_v41) (V c main_v37) (V c main_arg7) (V c main_v38) (((cfg1.win 6).blk t).view.emb (ix2 p q))
  rw [body1_apply]
  have ht : t.val < 17 := lt_of_lt_of_eq t.isLt N_1
  have hp := p.isLt
  have hq := q.isLt
  let R : Fin 104448 := ⟨t.val * 6144 + p.val, by omega⟩
  have e6 : ((cfg1.win 6).blk t).view.emb (ix2 p q) = (ix2 R q : S104448x64.Idx) := funext fun a => Fin.ext (by
    match a with
    | ⟨0, _⟩ => show win1_6.index t (0 : Fin 2) * 6144 + 1 * p.val = t.val * 6144 + p.val; omega
    | ⟨1, _⟩ => show win1_6.index t (1 : Fin 2) * 64 + 1 * q.val = q.val; omega)
  have eA : ∀ k : Fin 64, iblk1 V c 0 t (ix2 p k) = V c main_v39 (ix2 R k : S104448x64.Idx) := fun k =>
    congrArg (V c main_v39) (funext fun a => Fin.ext (by
      have hk := k.isLt
      match a with
      | ⟨0, _⟩ => show win1_0.index t (0 : Fin 2) * 6144 + 1 * p.val = t.val * 6144 + p.val; omega
      | ⟨1, _⟩ => show win1_0.index t (1 : Fin 2) * 64 + 1 * k.val = k.val; omega))
  have eD : iblk1 V c 1 t (ix2 p 0) = V c main_v40 (ix2 R 0 : S104448x1.Idx) :=
    congrArg (V c main_v40) (funext fun a => Fin.ext (by
      match a with
      | ⟨0, _⟩ => show win1_1.index t (0 : Fin 2) * 6144 + 1 * p.val = t.val * 6144 + p.val; omega
      | ⟨1, _⟩ => show win1_1.index t (1 : Fin 2) * 1 + 1 * 0 = 0; omega))
  have eX : ∀ k : Fin 64, iblk1 V c 2 t (ix2 p k) = V c main_v41 (ix2 R k : S104448x64.Idx) := fun k =>
    congrArg (V c main_v41) (funext fun a => Fin.ext (by
      have hk := k.isLt
      match a with
      | ⟨0, _⟩ => show win1_2.index t (0 : Fin 2) * 6144 + 1 * p.val = t.val * 6144 + p.val; omega
      | ⟨1, _⟩ => show win1_2.index t (1 : Fin 2) * 64 + 1 * k.val = k.val; omega))
  have eWl : ∀ k : Fin 64, iblk1 V c 3 t (ix2 k q) = V c main_v37 (ix2 k q : S64x64.Idx) := fun k =>
    congrArg (V c main_v37) (funext fun a => Fin.ext (by
      have hk := k.isLt
      match a with
      | ⟨0, _⟩ => show win1_3.index t (0 : Fin 2) * 64 + 1 * k.val = k.val; omega
      | ⟨1, _⟩ => show win1_3.index t (1 : Fin 2) * 64 + 1 * q.val = q.val; omega))
  have eb : iblk1 V c 4 t (ix1 q) = V c main_arg7 (ix1 q : S64.Idx) :=
    congrArg (V c main_arg7) (funext fun a => Fin.ext (by
      match a with
      | ⟨0, _⟩ => show win1_4.index t (0 : Fin 1) * 64 + 1 * q.val = q.val; omega))
  have eWr : ∀ k : Fin 64, iblk1 V c 5 t (ix2 k q) = V c main_v38 (ix2 k q : S64x64.Idx) := fun k =>
    congrArg (V c main_v38) (funext fun a => Fin.ext (by
      have hk := k.isLt
      match a with
      | ⟨0, _⟩ => show win1_5.index t (0 : Fin 2) * 64 + 1 * k.val = k.val; omega
      | ⟨1, _⟩ => show win1_5.index t (1 : Fin 2) * 64 + 1 * q.val = q.val; omega))
  rw [e6]
  simp only [eA, eD, eX, eWl, eb, eWr]
  rfl

/-- An index of the output array is in point `t`'s block iff each coordinate is in the block's range on its axis. -/
theorem mem_blk (t : Fin cfg1.N) (i : S104448x64.Idx) :
    i ∈ ((cfg1.win 6).blk t).view.set ↔ ∀ a : Fin 2, win1_6.index t a * S6144x64.size a ≤ (i a).val
      ∧ (i a).val < win1_6.index t a * S6144x64.size a + S6144x64.size a := by
  show i ∈ ((View.whole main_v42).slice (win1_6.rect t)).set ↔ _
  rw [View.set_slice_whole, Rect.mem_set_unit]
  exact Iff.rfl

/-- Every row of the output lies in the block of the point `row / 6144`: the 17 blocks tile the array. -/
theorem cover (i : S104448x64.Idx) :
    ∃ t : Fin cfg1.N, (cfg1.win 6).flush t = true ∧ i ∈ ((cfg1.win 6).blk t).view.set := by
  have hi0 : (i 0).val < 104448 := (i 0).isLt
  have hi1 : (i 1).val < 64 := (i 1).isLt
  have hN : (i 0).val / 6144 < cfg1.N := lt_of_lt_of_eq (by omega : (i 0).val / 6144 < 17) N_1.symm
  refine ⟨⟨(i 0).val / 6144, hN⟩, flush1_6 _, ?_⟩
  rw [mem_blk]
  obtain ⟨e00, e01, e10, e11, e20, e21, e30, e31, e40, e50, e51, e60, e61⟩ := idx_facts ⟨(i 0).val / 6144, hN⟩
  intro a
  match a with
  | ⟨0, _⟩ =>
    show win1_6.index ⟨(i 0).val / 6144, hN⟩ (0 : Fin 2) * 6144 ≤ (i 0).val
      ∧ (i 0).val < win1_6.index ⟨(i 0).val / 6144, hN⟩ (0 : Fin 2) * 6144 + 6144
    rw [e60]
    show (i 0).val / 6144 * 6144 ≤ (i 0).val ∧ (i 0).val < (i 0).val / 6144 * 6144 + 6144
    omega
  | ⟨1, _⟩ =>
    show win1_6.index ⟨(i 0).val / 6144, hN⟩ (1 : Fin 2) * 64 ≤ (i 1).val
      ∧ (i 1).val < win1_6.index ⟨(i 0).val / 6144, hN⟩ (1 : Fin 2) * 64 + 64
    rw [e61]
    omega

/-- The output array after the launch: `G` of the arrays the launch found. -/
theorem final (c : Dev nD) : (dat1 V c).arrAt 6 cfg1.N
    = G (V c main_v39) (V c main_v40) (V c main_v41) (V c main_v37) (V c main_arg7) (V c main_v38) :=
  (dat1 V c).arrAt_eq_of_cover 6 _ (fun t _ => flushed_eq V c t) cover

end Cert.KernelIdeal.Layer1

end
-- ==== Proof.RefLayer.lean ====
/-
  The reference's two graph layers read at an entry.

  The reference divides the summed neighbour features by the in-degree clamped at one, multiplies by the transposed
  left weights, adds the bias row, and adds the nodes' own features times the transposed right weights; the first layer
  is then clamped below at zero. Read at node `r`, feature `q`, stage by stage, that is the layer's entry
  (`LayerEntry.denseAt`) of row `r` of the aggregate, the in-degree of `r`, row `r` of the features, rows `q` of the two
  weight matrices and entry `q` of the bias.
-/
import proofs.«162650_j81441169866891_2_alg».proof.Proof.Gen.ReferenceIdeal.Read
import proofs.«162650_j81441169866891_2_alg».proof.Proof.LayerEntry

noncomputable section

open scoped BigOperators

namespace Cert.ReferenceIdeal.RefLayer

open Cert.ReferenceIdeal Cert.ReferenceIdeal.Read Cert.LayerEntry Idealize.ShloMosaic Idealize.ShloMosaic.ValueIdx

/-- The first layer at node `r`, feature `q`. -/
theorem layer1_apply (x0 : (⟨S100000x2, .f32⟩ : BufTy).Contents (Elt Ideal)) (x1 : (⟨S2x1250000, .i32⟩ : BufTy).Contents (Elt Ideal)) (x3 : (⟨S64x2, .f32⟩ : BufTy).Contents (Elt Ideal)) (x4 : (⟨S64, .f32⟩ : BufTy).Contents (Elt Ideal)) (x5 : (⟨S64x2, .f32⟩ : BufTy).Contents (Elt Ideal)) (r : Fin 100000) (q : Fin 64) :
    val_main_v31 (F := Ideal) x0 x1 x3 x4 x5 (ix2 r q)
      = max (denseAt (fun k : Fin 2 => val_main_v13 (F := Ideal) x0 x1 (ix2 r k)) (fun k => x0 (ix2 r k))
          (val_main_v17 (F := Ideal) x1 (ix1 r)) (fun k => x3 (ix2 q k)) (fun k => x5 (ix2 q k)) (x4 (ix1 q)))
        (Ideal.ofBits .f32 0x00000000#32) := by
  have eL : ∀ k : Fin 2, lidx_main_v24 (ix2 r q) k = ix2 r k := fun k => funext fun a => Fin.ext (by match a with | ⟨0, _⟩ => rfl | ⟨1, _⟩ => rfl)
  have eR : ∀ k : Fin 2, idx_main_v23 (ridx_main_v24 (ix2 r q) k) = ix2 q k := fun k => funext fun a => Fin.ext (by match a with | ⟨0, _⟩ => rfl | ⟨1, _⟩ => rfl)
  have eD : ∀ k : Fin 2, idx_main_v20 (idx_main_v21 (ix2 r k)) = ix1 r := fun k => funext fun a => Fin.ext (by match a with | ⟨0, _⟩ => rfl)
  have eB : idx_main_v25 (idx_main_v26 (ix2 r q)) = ix1 q := funext fun a => Fin.ext (by match a with | ⟨0, _⟩ => rfl)
  have eL' : ∀ k : Fin 2, lidx_main_v29 (ix2 r q) k = ix2 r k := fun k => funext fun a => Fin.ext (by match a with | ⟨0, _⟩ => rfl | ⟨1, _⟩ => rfl)
  have eR' : ∀ k : Fin 2, idx_main_v28 (ridx_main_v29 (ix2 r q) k) = ix2 q k := fun k => funext fun a => Fin.ext (by match a with | ⟨0, _⟩ => rfl | ⟨1, _⟩ => rfl)
  rw [val_main_v31_apply, val_main_v30_apply, val_main_v27_apply, val_main_v24_apply, val_main_v29_apply,
    val_main_v26_apply, val_main_v25_apply, val_main_call0_v0_apply, val_main_call0_cst_apply]
  unfold denseAt
  refine congrArg₂ max (congrArg₂ (· + ·) (congrArg₂ (· + ·) (Finset.sum_congr rfl fun k _ => ?_) ?_)
    (Finset.sum_congr rfl fun k _ => ?_)) rfl
  · rw [eL k, val_main_v22_apply, val_main_v21_apply, val_main_v20_apply, eD k, val_main_v19_apply, val_main_v18_apply,
      val_main_cst_3_apply, val_main_v23_apply, eR k]
    rw [Ideal.hostDivf_def, Ideal.maximumf_def, Ideal.ofBits_def]
  · rw [eB]
  · rw [eL' k, val_main_v28_apply, eR' k]

/-- The second layer at node `r`, feature `q`. -/
theorem layer2_apply (x0 : (⟨S100000x2, .f32⟩ : BufTy).Contents (Elt Ideal)) (x1 : (⟨S2x1250000, .i32⟩ : BufTy).Contents (Elt Ideal)) (x3 : (⟨S64x2, .f32⟩ : BufTy).Contents (Elt Ideal)) (x4 : (⟨S64, .f32⟩ : BufTy).Contents (Elt Ideal)) (x5 : (⟨S64x2, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (r : Fin 100000) (q : Fin 64) :
    val_main_v58 (F := Ideal) x0 x1 x3 x4 x5 x6 x7 x8 (ix2 r q)
      = denseAt (fun k : Fin 64 => val_main_v41 (F := Ideal) x0 x1 x3 x4 x5 (ix2 r k))
          (fun k => val_main_v31 (F := Ideal) x0 x1 x3 x4 x5 (ix2 r k))
          (val_main_v45 (F := Ideal) x1 (ix1 r)) (fun k => x6 (ix2 q k)) (fun k => x8 (ix2 q k)) (x7 (ix1 q)) := by
  have eL : ∀ k : Fin 64, lidx_main_v52 (ix2 r q) k = ix2 r k := fun k => funext fun a => Fin.ext (by match a with | ⟨0, _⟩ => rfl | ⟨1, _⟩ => rfl)
  have eR : ∀ k : Fin 64, idx_main_v51 (ridx_main_v52 (ix2 r q) k) = ix2 q k := fun k => funext fun a => Fin.ext (by match a with | ⟨0, _⟩ => rfl | ⟨1, _⟩ => rfl)
  have eD : ∀ k : Fin 64, idx_main_v48 (idx_main_v49 (ix2 r k)) = ix1 r := fun k => funext fun a => Fin.ext (by match a with | ⟨0, _⟩ => rfl)
  have eB : idx_main_v53 (idx_main_v54 (ix2 r q)) = ix1 q := funext fun a => Fin.ext (by match a with | ⟨0, _⟩ => rfl)
  have eL' : ∀ k : Fin 64, lidx_main_v57 (ix2 r q) k = ix2 r k := fun k => funext fun a => Fin.ext (by match a with | ⟨0, _⟩ => rfl | ⟨1, _⟩ => rfl)
  have eR' : ∀ k : Fin 64, idx_main_v56 (ridx_main_v57 (ix2 r q) k) = ix2 q k := fun k => funext fun a => Fin.ext (by match a with | ⟨0, _⟩ => rfl | ⟨1, _⟩ => rfl)
  rw [val_main_v58_apply, val_main_v55_apply, val_main_v52_apply, val_main_v57_apply,
    val_main_v54_apply, val_main_v53_apply]
  unfold denseAt
  refine congrArg₂ (· + ·) (congrArg₂ (· + ·) (Finset.sum_congr rfl fun k _ => ?_) ?_)
    (Finset.sum_congr rfl fun k _ => ?_)
  · rw [eL k, val_main_v50_apply, val_main_v49_apply, val_main_v48_apply, eD k, val_main_v47_apply, val_main_v46_apply,
      val_main_cst_9_apply, val_main_v51_apply, eR k]
    rw [Ideal.hostDivf_def, Ideal.maximumf_def, Ideal.ofBits_def]
  · rw [eB]
  · rw [eL' k, val_main_v56_apply, eR' k]

end Cert.ReferenceIdeal.RefLayer

end
-- ==== Proof.StretchA.lean ====
/-
  The host operations before the first launch, read one stretch at a time from ANY contents `V` of the buffers.

  From the edge list the program cuts out the source and target rows, counts every node's in-degree by a scatter-add of
  ones, gathers the source nodes' features and scatter-adds them at the targets, transposes the two first-layer weight
  matrices, and pads the three row-indexed arrays with 4448 rows to 104448 = 17 · 6144 rows. Each of these buffers is the
  same expression of the argument arrays that the reference program computes (its stages `val_main_vN`).
-/
import proofs.«162650_j81441169866891_2_alg».proof.Proof.Gen.KernelIdeal.Frame
import proofs.«162650_j81441169866891_2_alg».proof.Proof.Gen.ReferenceIdeal.Read
import Idealize.ShloMosaic.Lib.KernelVsHost
import Idealize.ShloMosaic.Lib.ValueLayout
import Idealize.ShloMosaic.Lib.StableHlo.Run

set_option maxRecDepth 16384
set_option maxHeartbeats 4000000

noncomputable section

namespace Cert.KernelIdeal.StretchA

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (V : Valuation τ sig (Elt Ideal))

/-- The neighbour sums of the input features: the reference's first scatter-add of gathered rows. -/
theorem agg1 : StableHlo.after hostOps0 V (Proc.devRef .tc main_v18)
    = val_main_v13 (F := Ideal) (V (Proc.devRef .tc main_arg0)) (V (Proc.devRef .tc main_arg1)) := by
  after_results_simp
  unfold val_main_v13 val_main_v12 val_main_v11 val_main_v10 val_main_v9 val_main_v8 val_main_v7 val_main_v6 val_main_v5 val_main_v4 val_main_v3 val_main_v2 val_main_v1 val_main_v0 val_main_cst val_main_c val_main_c_0
  rfl

/-- The in-degrees as a column: the reference's count (a scatter-add of ones) given a unit axis. -/
theorem deg : StableHlo.after hostOps0 V (Proc.devRef .tc main_v8)
    = broadcastInDim S100000x1 ![0] bcast_S100000_S100000x1_0 (val_main_v17 (F := Ideal) (V (Proc.devRef .tc main_arg1))) := by
  after_results_simp
  unfold val_main_v17 val_main_v16 val_main_v15 val_main_v14 val_main_v3 val_main_v2 val_main_cst_1 val_main_cst_2
  rfl

/-- The source-node row of the edge list. -/
theorem src : StableHlo.after hostOps0 V (Proc.devRef .tc main_v1) = val_main_v1 (F := Ideal) (V (Proc.devRef .tc main_arg1)) := by
  after_results_simp
  unfold val_main_v1 val_main_v0
  rfl

/-- The target-node row of the edge list. -/
theorem dst : StableHlo.after hostOps0 V (Proc.devRef .tc main_v3) = val_main_v3 (F := Ideal) (V (Proc.devRef .tc main_arg1)) := by
  after_results_simp
  unfold val_main_v3 val_main_v2
  rfl

/-- The first layer's left weights, transposed. -/
theorem wl : StableHlo.after hostOps0 V (Proc.devRef .tc main_v19)
    = transpose S2x64 [1, 0] (V (Proc.devRef .tc main_arg3)) transposes_S64x2_S2x64_1_0 := by
  after_results_simp

/-- The first layer's right weights, transposed. -/
theorem wr : StableHlo.after hostOps0 V (Proc.devRef .tc main_v20)
    = transpose S2x64 [1, 0] (V (Proc.devRef .tc main_arg5)) transposes_S64x2_S2x64_1_0 := by
  after_results_simp

/-- The neighbour sums padded to 104448 rows (the padding value plays no part: the extra rows are cut off again). -/
theorem pad_agg : ∃ z, StableHlo.after hostOps0_1 V (Proc.devRef .tc main_v21)
    = pad S104448x2 ![0, 0] ![4448, 0] ![0, 0] (V (Proc.devRef .tc main_v18)) z pads_S100000x2_S104448x2_044480_000 h_S_ :=
  ⟨_, by after_results_simp; rfl⟩

/-- The in-degree column padded to 104448 rows. -/
theorem pad_deg : ∃ z, StableHlo.after hostOps0_3 V (Proc.devRef .tc main_v22)
    = pad S104448x1 ![0, 0] ![4448, 0] ![0, 0] (V (Proc.devRef .tc main_v8)) z pads_S100000x1_S104448x1_044480_000 h_S_ :=
  ⟨_, by after_results_simp; rfl⟩

/-- The input features padded to 104448 rows. -/
theorem pad_self : ∃ z, StableHlo.after hostOps0_5 V (Proc.devRef .tc main_v23)
    = pad S104448x2 ![0, 0] ![4448, 0] ![0, 0] (V (Proc.devRef .tc main_arg0)) z pads_S100000x2_S104448x2_044480_000 h_S_ :=
  ⟨_, by after_results_simp; rfl⟩

end Cert.KernelIdeal.StretchA

end
-- ==== Proof.StretchB.lean ====
/-
  The host operations between the two launches, read one stretch at a time from ANY contents `V` of the buffers.

  The first launch's output is cut back to its 100000 rows (the hidden features); their rows are gathered at the source
  nodes and scatter-added at the targets; the second layer's weight matrices are transposed; the new neighbour sums, the
  in-degree column and the hidden features are padded to 104448 rows. Once the hidden features are the reference's, the
  neighbour sums are the reference's too: the same gather and the same scatter-add, a change of float format apart.
-/
import proofs.«162650_j81441169866891_2_alg».proof.Proof.Gen.KernelIdeal.Frame
import proofs.«162650_j81441169866891_2_alg».proof.Proof.Gen.ReferenceIdeal.Read
import Idealize.ShloMosaic.Lib.KernelVsHost
import Idealize.ShloMosaic.Lib.ValueLayout
import Idealize.ShloMosaic.Lib.StableHlo.Run

set_option maxRecDepth 16384
set_option maxHeartbeats 4000000

noncomputable section

namespace Cert.KernelIdeal.StretchB

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (V : Valuation τ sig (Elt Ideal))

/-- Widening a vector's float format is the identity on the extended reals. -/
theorem extf_id {s : Shape} {φ ψ : FTy} (a : FVec Ideal s φ) (h : φ.bits < ψ.bits) :
    (extf (F := Ideal) ψ a h : s.Idx → EReal) = a := rfl

/-- The hidden features: the first launch's output, its 100000 rows. -/
theorem hid : StableHlo.after hostOps1 V (Proc.devRef .tc main_v25)
    = extractStridedSlice S100000x64 ![0, 0] (V (Proc.devRef .tc main_v24)) slices_S104448x64_S100000x64_0_0 := by
  after_results_simp

/-- The neighbour sums of the hidden features are the reference's, once the hidden features and the two index rows are. -/
theorem agg2 (x0 : (⟨S100000x2, .f32⟩ : BufTy).Contents (Elt Ideal)) (x1 : (⟨S2x1250000, .i32⟩ : BufTy).Contents (Elt Ideal))
    (x3 : (⟨S64x2, .f32⟩ : BufTy).Contents (Elt Ideal)) (x4 : (⟨S64, .f32⟩ : BufTy).Contents (Elt Ideal))
    (x5 : (⟨S64x2, .f32⟩ : BufTy).Contents (Elt Ideal))
    (hH : (extractStridedSlice S100000x64 ![0, 0] (V (Proc.devRef .tc main_v24)) slices_S104448x64_S100000x64_0_0 : S100000x64.Idx → EReal)
      = val_main_v31 (F := Ideal) x0 x1 x3 x4 x5)
    (h1 : (V (Proc.devRef .tc main_v1)) = val_main_v1 (F := Ideal) x1) (h3 : (V (Proc.devRef .tc main_v3)) = val_main_v3 (F := Ideal) x1) :
    StableHlo.after hostOps1 V (Proc.devRef .tc main_v36) = val_main_v41 (F := Ideal) x0 x1 x3 x4 x5 := by
  after_results_simp
  rw [hH, h1, h3, extf_id]
  unfold val_main_v41 val_main_v40 val_main_v39 val_main_v38 val_main_v37 val_main_v36 val_main_v35 val_main_v34 val_main_v33 val_main_v32 val_main_c_4 val_main_c_5 val_main_cst_6
  rfl

/-- The second layer's left weights, transposed. -/
theorem wl : StableHlo.after hostOps1 V (Proc.devRef .tc main_v37)
    = transpose S64x64 [1, 0] (V (Proc.devRef .tc main_arg6)) transposes_S64x64_S64x64_1_0 := by
  after_results_simp

/-- The second layer's right weights, transposed. -/
theorem wr : StableHlo.after hostOps1 V (Proc.devRef .tc main_v38)
    = transpose S64x64 [1, 0] (V (Proc.devRef .tc main_arg8)) transposes_S64x64_S64x64_1_0 := by
  after_results_simp

/-- The neighbour sums of the hidden features padded to 104448 rows. -/
theorem pad_agg : ∃ z, StableHlo.after hostOps1_1 V (Proc.devRef .tc main_v39)
    = pad S104448x64 ![0, 0] ![4448, 0] ![0, 0] (V (Proc.devRef .tc main_v36)) z pads_S100000x64_S104448x64_044480_000 h_S_ :=
  ⟨_, by after_results_simp; rfl⟩

/-- The in-degree column padded to 104448 rows. -/
theorem pad_deg : ∃ z, StableHlo.after hostOps1_3 V (Proc.devRef .tc main_v40)
    = pad S104448x1 ![0, 0] ![4448, 0] ![0, 0] (V (Proc.devRef .tc main_v8)) z pads_S100000x1_S104448x1_044480_000 h_S_ :=
  ⟨_, by after_results_simp; rfl⟩

/-- The hidden features padded to 104448 rows. -/
theorem pad_self : ∃ z, StableHlo.after hostOps1_5 V (Proc.devRef .tc main_v41)
    = pad S104448x64 ![0, 0] ![4448, 0] ![0, 0] (V (Proc.devRef .tc main_v25)) z pads_S100000x64_S104448x64_044480_000 h_S_ :=
  ⟨_, by after_results_simp; rfl⟩

end Cert.KernelIdeal.StretchB

end
-- ==== Proof.StretchC.lean ====
/-
  The host operations after the second launch, read from ANY contents `V` of the buffers.

  The second launch's output is cut back to its 100000 rows (the node embeddings); for every labelled pair the two
  endpoints' embeddings are gathered, multiplied entry by entry and summed over the 64 features. Once the embeddings are
  the reference's, the scores are the reference's: the same two gathers, the same product, the same sum.
-/
import proofs.«162650_j81441169866891_2_alg».proof.Proof.Gen.KernelIdeal.Frame
import proofs.«162650_j81441169866891_2_alg».proof.Proof.Gen.ReferenceIdeal.Read
import Idealize.ShloMosaic.Lib.KernelVsHost
import Idealize.ShloMosaic.Lib.ValueLayout
import Idealize.ShloMosaic.Lib.StableHlo.Run

set_option maxRecDepth 16384
set_option maxHeartbeats 4000000

noncomputable section

namespace Cert.KernelIdeal.StretchC

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (V : Valuation τ sig (Elt Ideal))

/-- Widening a vector's float format is the identity on the extended reals. -/
theorem extf_id {s : Shape} {φ ψ : FTy} (a : FVec Ideal s φ) (h : φ.bits < ψ.bits) :
    (extf (F := Ideal) ψ a h : s.Idx → EReal) = a := rfl

/-- The scores are the reference's, once the node embeddings and the labelled pairs are. -/
theorem out (x0 : (⟨S100000x2, .f32⟩ : BufTy).Contents (Elt Ideal)) (x1 : (⟨S2x1250000, .i32⟩ : BufTy).Contents (Elt Ideal))
    (x3 : (⟨S64x2, .f32⟩ : BufTy).Contents (Elt Ideal)) (x4 : (⟨S64, .f32⟩ : BufTy).Contents (Elt Ideal))
    (x5 : (⟨S64x2, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x2 : (⟨S2x500000, .i32⟩ : BufTy).Contents (Elt Ideal))
    (hZ : (extractStridedSlice S100000x64 ![0, 0] (V (Proc.devRef .tc main_v42)) slices_S104448x64_S100000x64_0_0 : S100000x64.Idx → EReal)
      = val_main_v58 (F := Ideal) x0 x1 x3 x4 x5 x6 x7 x8)
    (h2 : (V (Proc.devRef .tc main_arg2)) = x2) :
    StableHlo.after hostOps2 V (Proc.devRef .tc main_v65) = val_main_v78 (F := Ideal) x0 x1 x2 x3 x4 x5 x6 x7 x8 := by
  after_results_simp
  rw [hZ, h2, extf_id, extf_id]
  unfold val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_cst_14 val_main_c_10 val_main_c_11 val_main_c_12 val_main_c_13
  rfl

end Cert.KernelIdeal.StretchC

end
-- ==== Proof.Carry.lean ====
/-
  Buffers that a stretch of host operations or a launch does not write keep their contents.

  @main's buffers at each segment boundary are a fold from the launch memory (`W0`, `W1`, …, `W15`). A stretch of host
  operations changes only the buffers its operations write, and a launch only its own arrays; so a buffer's contents at a
  later boundary are its contents at the boundary after the operation that wrote it. Each theorem here walks one buffer
  back over the segments that leave it alone.
-/
import proofs.«162650_j81441169866891_2_alg».proof.Proof.Gen.KernelIdeal.Frame
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- No operation of the named stretch writes the buffer in the goal: each operation's one result buffer is another. -/
macro "skip_ops " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem v21_6_2 : W6 m ρ c (Proc.devRef .tc main_v21) = W2 m ρ c (Proc.devRef .tc main_v21) :=
  calc W6 m ρ c (Proc.devRef .tc main_v21)
    _ = W5 m ρ c (Proc.devRef .tc main_v21) := by skip_ops hostOps0_5
    _ = W4 m ρ c (Proc.devRef .tc main_v21) := by skip_ops hostOps0_4
    _ = W3 m ρ c (Proc.devRef .tc main_v21) := by skip_ops hostOps0_3
    _ = W2 m ρ c (Proc.devRef .tc main_v21) := by skip_ops hostOps0_2

theorem v22_6_4 : W6 m ρ c (Proc.devRef .tc main_v22) = W4 m ρ c (Proc.devRef .tc main_v22) :=
  calc W6 m ρ c (Proc.devRef .tc main_v22)
    _ = W5 m ρ c (Proc.devRef .tc main_v22) := by skip_ops hostOps0_5
    _ = W4 m ρ c (Proc.devRef .tc main_v22) := by skip_ops hostOps0_4

theorem v8_3_1 : W3 m ρ c (Proc.devRef .tc main_v8) = W1 m ρ c (Proc.devRef .tc main_v8) :=
  calc W3 m ρ c (Proc.devRef .tc main_v8)
    _ = W2 m ρ c (Proc.devRef .tc main_v8) := by skip_ops hostOps0_2
    _ = W1 m ρ c (Proc.devRef .tc main_v8) := by skip_ops hostOps0_1

theorem arg0_5_0 : W5 m ρ c (Proc.devRef .tc main_arg0) = W0 m ρ c (Proc.devRef .tc main_arg0) :=
  calc W5 m ρ c (Proc.devRef .tc main_arg0)
    _ = W4 m ρ c (Proc.devRef .tc main_arg0) := by skip_ops hostOps0_4
    _ = W3 m ρ c (Proc.devRef .tc main_arg0) := by skip_ops hostOps0_3
    _ = W2 m ρ c (Proc.devRef .tc main_arg0) := by skip_ops hostOps0_2
    _ = W1 m ρ c (Proc.devRef .tc main_arg0) := by skip_ops hostOps0_1
    _ = W0 m ρ c (Proc.devRef .tc main_arg0) := by skip_ops hostOps0

theorem v19_6_1 : W6 m ρ c (Proc.devRef .tc main_v19) = W1 m ρ c (Proc.devRef .tc main_v19) :=
  calc W6 m ρ c (Proc.devRef .tc main_v19)
    _ = W5 m ρ c (Proc.devRef .tc main_v19) := by skip_ops hostOps0_5
    _ = W4 m ρ c (Proc.devRef .tc main_v19) := by skip_ops hostOps0_4
    _ = W3 m ρ c (Proc.devRef .tc main_v19) := by skip_ops hostOps0_3
    _ = W2 m ρ c (Proc.devRef .tc main_v19) := by skip_ops hostOps0_2
    _ = W1 m ρ c (Proc.devRef .tc main_v19) := by skip_ops hostOps0_1

theorem arg4_6_0 : W6 m ρ c (Proc.devRef .tc main_arg4) = W0 m ρ c (Proc.devRef .tc main_arg4) :=
  calc W6 m ρ c (Proc.devRef .tc main_arg4)
    _ = W5 m ρ c (Proc.devRef .tc main_arg4) := by skip_ops hostOps0_5
    _ = W4 m ρ c (Proc.devRef .tc main_arg4) := by skip_ops hostOps0_4
    _ = W3 m ρ c (Proc.devRef .tc main_arg4) := by skip_ops hostOps0_3
    _ = W2 m ρ c (Proc.devRef .tc main_arg4) := by skip_ops hostOps0_2
    _ = W1 m ρ c (Proc.devRef .tc main_arg4) := by skip_ops hostOps0_1
    _ = W0 m ρ c (Proc.devRef .tc main_arg4) := by skip_ops hostOps0

theorem v20_6_1 : W6 m ρ c (Proc.devRef .tc main_v20) = W1 m ρ c (Proc.devRef .tc main_v20) :=
  calc W6 m ρ c (Proc.devRef .tc main_v20)
    _ = W5 m ρ c (Proc.devRef .tc main_v20) := by skip_ops hostOps0_5
    _ = W4 m ρ c (Proc.devRef .tc main_v20) := by skip_ops hostOps0_4
    _ = W3 m ρ c (Proc.devRef .tc main_v20) := by skip_ops hostOps0_3
    _ = W2 m ρ c (Proc.devRef .tc main_v20) := by skip_ops hostOps0_2
    _ = W1 m ρ c (Proc.devRef .tc main_v20) := by skip_ops hostOps0_1

theorem v39_13_9 : W13 m ρ c (Proc.devRef .tc main_v39) = W9 m ρ c (Proc.devRef .tc main_v39) :=
  calc W13 m ρ c (Proc.devRef .tc main_v39)
    _ = W12 m ρ c (Proc.devRef .tc main_v39) := by skip_ops hostOps1_5
    _ = W11 m ρ c (Proc.devRef .tc main_v39) := by skip_ops hostOps1_4
    _ = W10 m ρ c (Proc.devRef .tc main_v39) := by skip_ops hostOps1_3
    _ = W9 m ρ c (Proc.devRef .tc main_v39) := by skip_ops hostOps1_2

theorem v1_7_1 : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := by skip_ops hostOps0_5
    _ = W4 m ρ c (Proc.devRef .tc main_v1) := by skip_ops hostOps0_4
    _ = W3 m ρ c (Proc.devRef .tc main_v1) := by skip_ops hostOps0_3
    _ = W2 m ρ c (Proc.devRef .tc main_v1) := by skip_ops hostOps0_2
    _ = W1 m ρ c (Proc.devRef .tc main_v1) := by skip_ops hostOps0_1

theorem v3_7_1 : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by skip_ops hostOps0_5
    _ = W4 m ρ c (Proc.devRef .tc main_v3) := by skip_ops hostOps0_4
    _ = W3 m ρ c (Proc.devRef .tc main_v3) := by skip_ops hostOps0_3
    _ = W2 m ρ c (Proc.devRef .tc main_v3) := by skip_ops hostOps0_2
    _ = W1 m ρ c (Proc.devRef .tc main_v3) := by skip_ops hostOps0_1

theorem v40_13_11 : W13 m ρ c (Proc.devRef .tc main_v40) = W11 m ρ c (Proc.devRef .tc main_v40) :=
  calc W13 m ρ c (Proc.devRef .tc main_v40)
    _ = W12 m ρ c (Proc.devRef .tc main_v40) := by skip_ops hostOps1_5
    _ = W11 m ρ c (Proc.devRef .tc main_v40) := by skip_ops hostOps1_4

theorem v8_10_1 : W10 m ρ c (Proc.devRef .tc main_v8) = W1 m ρ c (Proc.devRef .tc main_v8) :=
  calc W10 m ρ c (Proc.devRef .tc main_v8)
    _ = W9 m ρ c (Proc.devRef .tc main_v8) := by skip_ops hostOps1_2
    _ = W8 m ρ c (Proc.devRef .tc main_v8) := by skip_ops hostOps1_1
    _ = W7 m ρ c (Proc.devRef .tc main_v8) := by skip_ops hostOps1
    _ = W6 m ρ c (Proc.devRef .tc main_v8) := W7_of_ne m ρ c main_v8 (by decide)
    _ = W5 m ρ c (Proc.devRef .tc main_v8) := by skip_ops hostOps0_5
    _ = W4 m ρ c (Proc.devRef .tc main_v8) := by skip_ops hostOps0_4
    _ = W3 m ρ c (Proc.devRef .tc main_v8) := by skip_ops hostOps0_3
    _ = W2 m ρ c (Proc.devRef .tc main_v8) := by skip_ops hostOps0_2
    _ = W1 m ρ c (Proc.devRef .tc main_v8) := by skip_ops hostOps0_1

theorem v25_12_8 : W12 m ρ c (Proc.devRef .tc main_v25) = W8 m ρ c (Proc.devRef .tc main_v25) :=
  calc W12 m ρ c (Proc.devRef .tc main_v25)
    _ = W11 m ρ c (Proc.devRef .tc main_v25) := by skip_ops hostOps1_4
    _ = W10 m ρ c (Proc.devRef .tc main_v25) := by skip_ops hostOps1_3
    _ = W9 m ρ c (Proc.devRef .tc main_v25) := by skip_ops hostOps1_2
    _ = W8 m ρ c (Proc.devRef .tc main_v25) := by skip_ops hostOps1_1

theorem v37_13_8 : W13 m ρ c (Proc.devRef .tc main_v37) = W8 m ρ c (Proc.devRef .tc main_v37) :=
  calc W13 m ρ c (Proc.devRef .tc main_v37)
    _ = W12 m ρ c (Proc.devRef .tc main_v37) := by skip_ops hostOps1_5
    _ = W11 m ρ c (Proc.devRef .tc main_v37) := by skip_ops hostOps1_4
    _ = W10 m ρ c (Proc.devRef .tc main_v37) := by skip_ops hostOps1_3
    _ = W9 m ρ c (Proc.devRef .tc main_v37) := by skip_ops hostOps1_2
    _ = W8 m ρ c (Proc.devRef .tc main_v37) := by skip_ops hostOps1_1

theorem arg6_7_0 : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := by skip_ops hostOps0_5
    _ = W4 m ρ c (Proc.devRef .tc main_arg6) := by skip_ops hostOps0_4
    _ = W3 m ρ c (Proc.devRef .tc main_arg6) := by skip_ops hostOps0_3
    _ = W2 m ρ c (Proc.devRef .tc main_arg6) := by skip_ops hostOps0_2
    _ = W1 m ρ c (Proc.devRef .tc main_arg6) := by skip_ops hostOps0_1
    _ = W0 m ρ c (Proc.devRef .tc main_arg6) := by skip_ops hostOps0

theorem arg7_13_0 : W13 m ρ c (Proc.devRef .tc main_arg7) = W0 m ρ c (Proc.devRef .tc main_arg7) :=
  calc W13 m ρ c (Proc.devRef .tc main_arg7)
    _ = W12 m ρ c (Proc.devRef .tc main_arg7) := by skip_ops hostOps1_5
    _ = W11 m ρ c (Proc.devRef .tc main_arg7) := by skip_ops hostOps1_4
    _ = W10 m ρ c (Proc.devRef .tc main_arg7) := by skip_ops hostOps1_3
    _ = W9 m ρ c (Proc.devRef .tc main_arg7) := by skip_ops hostOps1_2
    _ = W8 m ρ c (Proc.devRef .tc main_arg7) := by skip_ops hostOps1_1
    _ = W7 m ρ c (Proc.devRef .tc main_arg7) := by skip_ops hostOps1
    _ = W6 m ρ c (Proc.devRef .tc main_arg7) := W7_of_ne m ρ c main_arg7 (by decide)
    _ = W5 m ρ c (Proc.devRef .tc main_arg7) := by skip_ops hostOps0_5
    _ = W4 m ρ c (Proc.devRef .tc main_arg7) := by skip_ops hostOps0_4
    _ = W3 m ρ c (Proc.devRef .tc main_arg7) := by skip_ops hostOps0_3
    _ = W2 m ρ c (Proc.devRef .tc main_arg7) := by skip_ops hostOps0_2
    _ = W1 m ρ c (Proc.devRef .tc main_arg7) := by skip_ops hostOps0_1
    _ = W0 m ρ c (Proc.devRef .tc main_arg7) := by skip_ops hostOps0

theorem v38_13_8 : W13 m ρ c (Proc.devRef .tc main_v38) = W8 m ρ c (Proc.devRef .tc main_v38) :=
  calc W13 m ρ c (Proc.devRef .tc main_v38)
    _ = W12 m ρ c (Proc.devRef .tc main_v38) := by skip_ops hostOps1_5
    _ = W11 m ρ c (Proc.devRef .tc main_v38) := by skip_ops hostOps1_4
    _ = W10 m ρ c (Proc.devRef .tc main_v38) := by skip_ops hostOps1_3
    _ = W9 m ρ c (Proc.devRef .tc main_v38) := by skip_ops hostOps1_2
    _ = W8 m ρ c (Proc.devRef .tc main_v38) := by skip_ops hostOps1_1

theorem arg8_7_0 : W7 m ρ c (Proc.devRef .tc main_arg8) = W0 m ρ c (Proc.devRef .tc main_arg8) :=
  calc W7 m ρ c (Proc.devRef .tc main_arg8)
    _ = W6 m ρ c (Proc.devRef .tc main_arg8) := W7_of_ne m ρ c main_arg8 (by decide)
    _ = W5 m ρ c (Proc.devRef .tc main_arg8) := by skip_ops hostOps0_5
    _ = W4 m ρ c (Proc.devRef .tc main_arg8) := by skip_ops hostOps0_4
    _ = W3 m ρ c (Proc.devRef .tc main_arg8) := by skip_ops hostOps0_3
    _ = W2 m ρ c (Proc.devRef .tc main_arg8) := by skip_ops hostOps0_2
    _ = W1 m ρ c (Proc.devRef .tc main_arg8) := by skip_ops hostOps0_1
    _ = W0 m ρ c (Proc.devRef .tc main_arg8) := by skip_ops hostOps0

theorem arg2_14_0 : W14 m ρ c (Proc.devRef .tc main_arg2) = W0 m ρ c (Proc.devRef .tc main_arg2) :=
  calc W14 m ρ c (Proc.devRef .tc main_arg2)
    _ = W13 m ρ c (Proc.devRef .tc main_arg2) := W14_of_ne m ρ c main_arg2 (by decide)
    _ = W12 m ρ c (Proc.devRef .tc main_arg2) := by skip_ops hostOps1_5
    _ = W11 m ρ c (Proc.devRef .tc main_arg2) := by skip_ops hostOps1_4
    _ = W10 m ρ c (Proc.devRef .tc main_arg2) := by skip_ops hostOps1_3
    _ = W9 m ρ c (Proc.devRef .tc main_arg2) := by skip_ops hostOps1_2
    _ = W8 m ρ c (Proc.devRef .tc main_arg2) := by skip_ops hostOps1_1
    _ = W7 m ρ c (Proc.devRef .tc main_arg2) := by skip_ops hostOps1
    _ = W6 m ρ c (Proc.devRef .tc main_arg2) := W7_of_ne m ρ c main_arg2 (by decide)
    _ = W5 m ρ c (Proc.devRef .tc main_arg2) := by skip_ops hostOps0_5
    _ = W4 m ρ c (Proc.devRef .tc main_arg2) := by skip_ops hostOps0_4
    _ = W3 m ρ c (Proc.devRef .tc main_arg2) := by skip_ops hostOps0_3
    _ = W2 m ρ c (Proc.devRef .tc main_arg2) := by skip_ops hostOps0_2
    _ = W1 m ρ c (Proc.devRef .tc main_arg2) := by skip_ops hostOps0_1
    _ = W0 m ρ c (Proc.devRef .tc main_arg2) := by skip_ops hostOps0

end Cert.KernelIdeal.Carry

end
-- ==== Proof.Bridge.lean ====
/-
  The kernel program's result is the reference's, as a function of the launch memory.

  Layer by layer. The first launch finds the neighbour sums, the in-degree column and the input features padded to
  104448 rows, and the transposed weights; its output's first 100000 rows — the hidden features — are, entry by entry,
  the layer's entry (`LayerEntry.denseAt`) clamped at zero, which is what the reference's first layer is at that entry.
  The second launch finds the neighbour sums of those hidden features (the reference's, since the hidden features are),
  the same in-degrees and the hidden features, padded likewise; its output's first 100000 rows — the node embeddings —
  are the reference's second layer entry by entry. The scores are then the same gathers, product and sum of the same
  embeddings. The rows a launch computes from padding are cut off and never read.
-/
import proofs.«162650_j81441169866891_2_alg».proof.Proof.Gen.KernelIdeal.Frame
import proofs.«162650_j81441169866891_2_alg».proof.Proof.Gen.ReferenceIdeal.Read
import proofs.«162650_j81441169866891_2_alg».proof.Proof.Layer0
import proofs.«162650_j81441169866891_2_alg».proof.Proof.Layer1
import proofs.«162650_j81441169866891_2_alg».proof.Proof.RefLayer
import proofs.«162650_j81441169866891_2_alg».proof.Proof.StretchA
import proofs.«162650_j81441169866891_2_alg».proof.Proof.StretchB
import proofs.«162650_j81441169866891_2_alg».proof.Proof.StretchC
import proofs.«162650_j81441169866891_2_alg».proof.Proof.Carry
import Idealize.ShloMosaic.Lib.KernelVsHost
import Idealize.ShloMosaic.Lib.ValueLayout

set_option maxRecDepth 16384

noncomputable section

namespace Cert.KernelIdeal.Bridge

open Cert.KernelIdeal Cert.KernelIdeal.Gen Cert.ReferenceIdeal.Read Cert.LayerEntry
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- An array of 100000 rows padded below with 4448 rows, read at one of its first 100000 rows: the array there. -/
theorem pad_rows_apply {f : Nat} {α : Type} (x : (⟨2, ![100000, f]⟩ : Shape).Idx → α) (z : (⟨0, ![]⟩ : Shape).Idx → α)
    (h : (⟨2, ![100000, f]⟩ : Shape).Pads ![0, 0] ![4448, 0] ![0, 0] ⟨2, ![104448, f]⟩) (hu : 0 < (⟨0, ![]⟩ : Shape).numel)
    (r : Fin 100000) (k : Fin f) (R : Fin 104448) (hR : R.val = r.val) :
    pad ⟨2, ![104448, f]⟩ ![0, 0] ![4448, 0] ![0, 0] x z h hu (ix2 R k) = x (ix2 r k) :=
  pad_apply_of_inside _ _ _ x z h hu (ix2 R k) (ix2 r k) (fun a => by
    match a with
    | ⟨0, _⟩ => show R.val = 0 + r.val * (0 + 1); omega
    | ⟨1, _⟩ => show k.val = 0 + k.val * (0 + 1); omega)

/-! ## The first layer -/

/-- The first launch's entry arrays at row `R = r` are the reference's operands of its first layer at node `r`. -/
theorem rows0 (r : Fin 100000) (q : Fin 64) (R : Fin 104448) (hR : R.val = r.val) :
    Layer0.layerAt (V6 m ρ c main_v21) (V6 m ρ c main_v22) (V6 m ρ c main_v23) (V6 m ρ c main_v19) (V6 m ρ c main_arg4)
        (V6 m ρ c main_v20) R q
      = denseAt (fun k : Fin 2 => val_main_v13 (F := Ideal) (m ((c : Thread nD τ).loc main_arg0)) (m ((c : Thread nD τ).loc main_arg1)) (ix2 r k))
          (fun k => (m ((c : Thread nD τ).loc main_arg0)) (ix2 r k)) (val_main_v17 (F := Ideal) (m ((c : Thread nD τ).loc main_arg1)) (ix1 r))
          (fun k => (m ((c : Thread nD τ).loc main_arg3)) (ix2 q k)) (fun k => (m ((c : Thread nD τ).loc main_arg5)) (ix2 q k)) ((m ((c : Thread nD τ).loc main_arg4)) (ix1 q)) := by
  obtain ⟨z1, e1⟩ := StretchA.pad_agg (W1 m ρ c)
  obtain ⟨z2, e2⟩ := StretchA.pad_deg (W3 m ρ c)
  obtain ⟨z3, e3⟩ := StretchA.pad_self (W5 m ρ c)
  have hA : ∀ k : Fin 2, V6 m ρ c main_v21 (ix2 R k : S104448x2.Idx) = val_main_v13 (F := Ideal) (m ((c : Thread nD τ).loc main_arg0)) (m ((c : Thread nD τ).loc main_arg1)) (ix2 r k) := fun k =>
    calc V6 m ρ c main_v21 (ix2 R k : S104448x2.Idx)
      _ = W2 m ρ c (Proc.devRef .tc main_v21) (ix2 R k : S104448x2.Idx) := congrFun (Carry.v21_6_2 m ρ c) _
      _ = W1 m ρ c (Proc.devRef .tc main_v18) (ix2 r k : S100000x2.Idx) := (congrFun e1 _).trans (pad_rows_apply (f := 2) _ _ _ _ r k R hR)
      _ = val_main_v13 (F := Ideal) (m ((c : Thread nD τ).loc main_arg0)) (m ((c : Thread nD τ).loc main_arg1)) (ix2 r k) := congrFun (StretchA.agg1 (W0 m ρ c)) _
  have hD : V6 m ρ c main_v22 (ix2 R 0 : S104448x1.Idx) = val_main_v17 (F := Ideal) (m ((c : Thread nD τ).loc main_arg1)) (ix1 r) :=
    calc V6 m ρ c main_v22 (ix2 R 0 : S104448x1.Idx)
      _ = W4 m ρ c (Proc.devRef .tc main_v22) (ix2 R 0 : S104448x1.Idx) := congrFun (Carry.v22_6_4 m ρ c) _
      _ = W3 m ρ c (Proc.devRef .tc main_v8) (ix2 r 0 : S100000x1.Idx) := (congrFun e2 _).trans (pad_rows_apply (f := 1) _ _ _ _ r 0 R hR)
      _ = W1 m ρ c (Proc.devRef .tc main_v8) (ix2 r 0 : S100000x1.Idx) := congrFun (Carry.v8_3_1 m ρ c) _
      _ = broadcastInDim S100000x1 ![0] bcast_S100000_S100000x1_0 (val_main_v17 (F := Ideal) (m ((c : Thread nD τ).loc main_arg1))) (ix2 r 0) :=
        congrFun (StretchA.deg (W0 m ρ c)) _
      _ = val_main_v17 (F := Ideal) (m ((c : Thread nD τ).loc main_arg1)) (ix1 r) :=
        broadcastInDim_apply _ _ _ (ix2 r 0) (ix1 r) (fun a => by match a with | ⟨0, _⟩ => rfl)
  have hX : ∀ k : Fin 2, V6 m ρ c main_v23 (ix2 R k : S104448x2.Idx) = (m ((c : Thread nD τ).loc main_arg0)) (ix2 r k) := fun k =>
    calc V6 m ρ c main_v23 (ix2 R k : S104448x2.Idx)
      _ = W5 m ρ c (Proc.devRef .tc main_arg0) (ix2 r k : S100000x2.Idx) := (congrFun e3 _).trans (pad_rows_apply (f := 2) _ _ _ _ r k R hR)
      _ = (m ((c : Thread nD τ).loc main_arg0)) (ix2 r k) := congrFun (Carry.arg0_5_0 m ρ c) _
  have hWl : ∀ k : Fin 2, V6 m ρ c main_v19 (ix2 k q : S2x64.Idx) = (m ((c : Thread nD τ).loc main_arg3)) (ix2 q k) := fun k =>
    calc V6 m ρ c main_v19 (ix2 k q : S2x64.Idx)
      _ = W1 m ρ c (Proc.devRef .tc main_v19) (ix2 k q : S2x64.Idx) := congrFun (Carry.v19_6_1 m ρ c) _
      _ = transpose S2x64 [1, 0] (m ((c : Thread nD τ).loc main_arg3)) transposes_S64x2_S2x64_1_0 (ix2 k q) := congrFun (StretchA.wl (W0 m ρ c)) _
      _ = (m ((c : Thread nD τ).loc main_arg3)) (ix2 q k) := transpose_ix2_apply _ _ k q
  have hb : V6 m ρ c main_arg4 (ix1 q : S64.Idx) = (m ((c : Thread nD τ).loc main_arg4)) (ix1 q) := congrFun (Carry.arg4_6_0 m ρ c) _
  have hWr : ∀ k : Fin 2, V6 m ρ c main_v20 (ix2 k q : S2x64.Idx) = (m ((c : Thread nD τ).loc main_arg5)) (ix2 q k) := fun k =>
    calc V6 m ρ c main_v20 (ix2 k q : S2x64.Idx)
      _ = W1 m ρ c (Proc.devRef .tc main_v20) (ix2 k q : S2x64.Idx) := congrFun (Carry.v20_6_1 m ρ c) _
      _ = transpose S2x64 [1, 0] (m ((c : Thread nD τ).loc main_arg5)) transposes_S64x2_S2x64_1_0 (ix2 k q) := congrFun (StretchA.wr (W0 m ρ c)) _
      _ = (m ((c : Thread nD τ).loc main_arg5)) (ix2 q k) := transpose_ix2_apply _ _ k q
  unfold Layer0.layerAt
  rw [funext hA, hD, funext hX, funext hWl, hb, funext hWr]

/-- The hidden features — the first launch's output, its 100000 rows — are the reference's first layer. -/
theorem hidden : (extractStridedSlice S100000x64 ![0, 0] (W7 m ρ c (Proc.devRef .tc main_v24)) slices_S104448x64_S100000x64_0_0 : S100000x64.Idx → EReal)
    = val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have hG : W7 m ρ c (Proc.devRef .tc main_v24) = Layer0.G (V6 m ρ c main_v21) (V6 m ρ c main_v22) (V6 m ρ c main_v23)
      (V6 m ρ c main_v19) (V6 m ρ c main_arg4) (V6 m ρ c main_v20) := (W7_arr m ρ c 6).trans (Layer0.final (V6 m ρ) c)
  funext i
  obtain ⟨r, q, rfl⟩ : ∃ (r : Fin 100000) (q : Fin 64), i = ix2 r q := ⟨i 0, i 1, eq_ix2 i⟩
  rw [slice2_axis0_eq, Cert.ReferenceIdeal.RefLayer.layer1_apply, hG]
  exact congrArg (fun z => max z (Ideal.ofBits .f32 0x00000000#32)) (rows0 m ρ c r q ⟨0 + r.val, _⟩ (Nat.zero_add _))

/-! ## The second layer -/

/-- The reference counts the in-degrees twice, once per layer, by the same operations. -/
theorem deg_same (x1 : (⟨S2x1250000, .i32⟩ : BufTy).Contents (Elt Ideal)) :
    val_main_v17 (F := Ideal) x1 = val_main_v45 (F := Ideal) x1 := by
  unfold val_main_v45 val_main_v17 val_main_v44 val_main_v16 val_main_v43 val_main_v15 val_main_v42 val_main_v14
    val_main_cst_7 val_main_cst_1 val_main_cst_8 val_main_cst_2
  rfl

/-- The neighbour sums of the hidden features, before padding, are the reference's. -/
theorem agg2 : W8 m ρ c (Proc.devRef .tc main_v36) = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  StretchB.agg2 (W7 m ρ c) _ _ _ _ _ (hidden m ρ c)
    ((Carry.v1_7_1 m ρ c).trans (StretchA.src (W0 m ρ c))) ((Carry.v3_7_1 m ρ c).trans (StretchA.dst (W0 m ρ c)))

/-- The second launch's entry arrays at row `R = r` are the reference's operands of its second layer at node `r`. -/
theorem rows1 (r : Fin 100000) (q : Fin 64) (R : Fin 104448) (hR : R.val = r.val) :
    Layer1.layerAt (V13 m ρ c main_v39) (V13 m ρ c main_v40) (V13 m ρ c main_v41) (V13 m ρ c main_v37) (V13 m ρ c main_arg7)
        (V13 m ρ c main_v38) R q
      = denseAt (fun k : Fin 64 => val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r k))
          (fun k => val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r k)) (val_main_v45 (F := Ideal) (m ((c : Thread nD τ).loc main_arg1)) (ix1 r))
          (fun k => (m ((c : Thread nD τ).loc main_arg6)) (ix2 q k)) (fun k => (m ((c : Thread nD τ).loc main_arg8)) (ix2 q k)) ((m ((c : Thread nD τ).loc main_arg7)) (ix1 q)) := by
  obtain ⟨z1, e1⟩ := StretchB.pad_agg (W8 m ρ c)
  obtain ⟨z2, e2⟩ := StretchB.pad_deg (W10 m ρ c)
  obtain ⟨z3, e3⟩ := StretchB.pad_self (W12 m ρ c)
  have hA : ∀ k : Fin 64, V13 m ρ c main_v39 (ix2 R k : S104448x64.Idx) = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r k) := fun k =>
    calc V13 m ρ c main_v39 (ix2 R k : S104448x64.Idx)
      _ = W9 m ρ c (Proc.devRef .tc main_v39) (ix2 R k : S104448x64.Idx) := congrFun (Carry.v39_13_9 m ρ c) _
      _ = W8 m ρ c (Proc.devRef .tc main_v36) (ix2 r k : S100000x64.Idx) := (congrFun e1 _).trans (pad_rows_apply (f := 64) _ _ _ _ r k R hR)
      _ = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r k) := congrFun (agg2 m ρ c) _
  have hD : V13 m ρ c main_v40 (ix2 R 0 : S104448x1.Idx) = val_main_v45 (F := Ideal) (m ((c : Thread nD τ).loc main_arg1)) (ix1 r) :=
    calc V13 m ρ c main_v40 (ix2 R 0 : S104448x1.Idx)
      _ = W11 m ρ c (Proc.devRef .tc main_v40) (ix2 R 0 : S104448x1.Idx) := congrFun (Carry.v40_13_11 m ρ c) _
      _ = W10 m ρ c (Proc.devRef .tc main_v8) (ix2 r 0 : S100000x1.Idx) := (congrFun e2 _).trans (pad_rows_apply (f := 1) _ _ _ _ r 0 R hR)
      _ = W1 m ρ c (Proc.devRef .tc main_v8) (ix2 r 0 : S100000x1.Idx) := congrFun (Carry.v8_10_1 m ρ c) _
      _ = broadcastInDim S100000x1 ![0] bcast_S100000_S100000x1_0 (val_main_v17 (F := Ideal) (m ((c : Thread nD τ).loc main_arg1))) (ix2 r 0) :=
        congrFun (StretchA.deg (W0 m ρ c)) _
      _ = val_main_v17 (F := Ideal) (m ((c : Thread nD τ).loc main_arg1)) (ix1 r) :=
        broadcastInDim_apply _ _ _ (ix2 r 0) (ix1 r) (fun a => by match a with | ⟨0, _⟩ => rfl)
      _ = val_main_v45 (F := Ideal) (m ((c : Thread nD τ).loc main_arg1)) (ix1 r) := congrFun (deg_same _) _
  have hX : ∀ k : Fin 64, V13 m ρ c main_v41 (ix2 R k : S104448x64.Idx) = val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r k) := fun k =>
    calc V13 m ρ c main_v41 (ix2 R k : S104448x64.Idx)
      _ = W12 m ρ c (Proc.devRef .tc main_v25) (ix2 r k : S100000x64.Idx) := (congrFun e3 _).trans (pad_rows_apply (f := 64) _ _ _ _ r k R hR)
      _ = W8 m ρ c (Proc.devRef .tc main_v25) (ix2 r k : S100000x64.Idx) := congrFun (Carry.v25_12_8 m ρ c) _
      _ = (extractStridedSlice S100000x64 ![0, 0] (W7 m ρ c (Proc.devRef .tc main_v24)) slices_S104448x64_S100000x64_0_0 : S100000x64.Idx → EReal) (ix2 r k) :=
        congrFun (StretchB.hid (W7 m ρ c)) _
      _ = val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r k) := congrFun (hidden m ρ c) _
  have hWl : ∀ k : Fin 64, V13 m ρ c main_v37 (ix2 k q : S64x64.Idx) = (m ((c : Thread nD τ).loc main_arg6)) (ix2 q k) := fun k =>
    calc V13 m ρ c main_v37 (ix2 k q : S64x64.Idx)
      _ = W8 m ρ c (Proc.devRef .tc main_v37) (ix2 k q : S64x64.Idx) := congrFun (Carry.v37_13_8 m ρ c) _
      _ = transpose S64x64 [1, 0] (W7 m ρ c (Proc.devRef .tc main_arg6)) transposes_S64x64_S64x64_1_0 (ix2 k q) := congrFun (StretchB.wl (W7 m ρ c)) _
      _ = W7 m ρ c (Proc.devRef .tc main_arg6) (ix2 q k : S64x64.Idx) := transpose_ix2_apply _ _ k q
      _ = (m ((c : Thread nD τ).loc main_arg6)) (ix2 q k) := congrFun (Carry.arg6_7_0 m ρ c) _
  have hb : V13 m ρ c main_arg7 (ix1 q : S64.Idx) = (m ((c : Thread nD τ).loc main_arg7)) (ix1 q) := congrFun (Carry.arg7_13_0 m ρ c) _
  have hWr : ∀ k : Fin 64, V13 m ρ c main_v38 (ix2 k q : S64x64.Idx) = (m ((c : Thread nD τ).loc main_arg8)) (ix2 q k) := fun k =>
    calc V13 m ρ c main_v38 (ix2 k q : S64x64.Idx)
      _ = W8 m ρ c (Proc.devRef .tc main_v38) (ix2 k q : S64x64.Idx) := congrFun (Carry.v38_13_8 m ρ c) _
      _ = transpose S64x64 [1, 0] (W7 m ρ c (Proc.devRef .tc main_arg8)) transposes_S64x64_S64x64_1_0 (ix2 k q) := congrFun (StretchB.wr (W7 m ρ c)) _
      _ = W7 m ρ c (Proc.devRef .tc main_arg8) (ix2 q k : S64x64.Idx) := transpose_ix2_apply _ _ k q
      _ = (m ((c : Thread nD τ).loc main_arg8)) (ix2 q k) := congrFun (Carry.arg8_7_0 m ρ c) _
  unfold Layer1.layerAt
  rw [funext hA, hD, funext hX, funext hWl, hb, funext hWr]

/-- The node embeddings — the second launch's output, its 100000 rows — are the reference's second layer. -/
theorem embeddings : (extractStridedSlice S100000x64 ![0, 0] (W14 m ρ c (Proc.devRef .tc main_v42)) slices_S104448x64_S100000x64_0_0 : S100000x64.Idx → EReal)
    = val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hG : W14 m ρ c (Proc.devRef .tc main_v42) = Layer1.G (V13 m ρ c main_v39) (V13 m ρ c main_v40) (V13 m ρ c main_v41)
      (V13 m ρ c main_v37) (V13 m ρ c main_arg7) (V13 m ρ c main_v38) := (W14_arr m ρ c 6).trans (Layer1.final (V13 m ρ) c)
  funext i
  obtain ⟨r, q, rfl⟩ : ∃ (r : Fin 100000) (q : Fin 64), i = ix2 r q := ⟨i 0, i 1, eq_ix2 i⟩
  rw [slice2_axis0_eq, Cert.ReferenceIdeal.RefLayer.layer2_apply, hG]
  exact rows1 m ρ c r q ⟨0 + r.val, _⟩ (Nat.zero_add _)

/-! ## The scores -/

/-- The kernel program's result array, at the last boundary, is the reference's result of the launch memory's arguments. -/
theorem result : W15 m ρ c (Proc.devRef .tc main_v65)
    = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  StretchC.out (W14 m ρ c) _ _ _ _ _ _ _ _ _ (embeddings m ρ c) (Carry.arg2_14_0 m ρ c)

end Cert.KernelIdeal.Bridge

end
-- ==== Proof.lean ====
/-
  Two layers of mean-aggregation graph convolution followed by a dot-product decoder: the kernel program against its
  reference, on the extended reals.

  Both programs take node features, an edge list, a list of labelled node pairs and the two layers' weights and biases.
  A layer maps every node to

      ( ∑ₖ (a k / max d 1) · wl k  +  b )  +  ∑ₖ x k · wr k ,

  `a` the sum of the features of the node's in-neighbours, `d` its in-degree, `x` its own features; the first layer is
  clamped below at zero. The score of a labelled pair is the dot product of its endpoints' second-layer embeddings.

  The reference computes each layer with whole-array host operations. The kernel program computes the neighbour sums
  and in-degrees by the same host operations (the same gathers and scatter-adds of the same index rows), pads the
  row-indexed arrays to 17 blocks of 6144 rows, runs each layer's arithmetic in a launch over those blocks, cuts the
  padding rows off again, and decodes by the same host operations. At the ideal values the two compute the same
  expression in the same grouping, so no law of arithmetic and no finiteness of the inputs is used: the proof is the
  bookkeeping that each operand of each entry is the same array entry on both sides.

  The modules: `LayerEntry` (the expression), `DenseBody` (the two kernel bodies at an entry of their block),
  `Layer0` / `Layer1` (each launch's whole output array from the arrays it finds), `RefLayer` (the reference's layers
  at an entry), `StretchA` / `StretchB` / `StretchC` (the host operations before, between and after the launches),
  `Carry` (buffers nobody writes keep their contents), `Bridge` (the kernel's result is the reference's),
  `RunResult` (the kernel program's run with its result named). The kernel idealization rewrote nothing, so
  `preserves` is trivial; the three frames are the generated ones.
-/
import proofs.«162650_j81441169866891_2_alg».proof.Defs
import proofs.«162650_j81441169866891_2_alg».proof.Proof.Gen.Kernel
import proofs.«162650_j81441169866891_2_alg».proof.Proof.Gen.Kernel.Skeleton
import proofs.«162650_j81441169866891_2_alg».proof.Proof.Gen.Kernel.Launch
import proofs.«162650_j81441169866891_2_alg».proof.Proof.Gen.Kernel.Points
import proofs.«162650_j81441169866891_2_alg».proof.Proof.Gen.Kernel.Frame
import proofs.«162650_j81441169866891_2_alg».proof.Proof.Gen.KernelIdeal
import proofs.«162650_j81441169866891_2_alg».proof.Proof.Gen.KernelIdeal.Skeleton
import proofs.«162650_j81441169866891_2_alg».proof.Proof.Gen.KernelIdeal.Launch
import proofs.«162650_j81441169866891_2_alg».proof.Proof.Gen.KernelIdeal.Points
import proofs.«162650_j81441169866891_2_alg».proof.Proof.Gen.KernelIdeal.Frame
import proofs.«162650_j81441169866891_2_alg».proof.Proof.Gen.ReferenceIdeal
import proofs.«162650_j81441169866891_2_alg».proof.Proof.Gen.Pre_finite_inputs
import proofs.«162650_j81441169866891_2_alg».proof.Proof.Gen.ReferenceIdeal.Run
import proofs.«162650_j81441169866891_2_alg».proof.Proof.Gen.ReferenceIdeal.Read
import proofs.«162650_j81441169866891_2_alg».proof.Proof.RunResult
import proofs.«162650_j81441169866891_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- The idealized kernel program runs and leaves its arguments alone. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of those arguments:
    the kernel program by `Bridge.result`, the reference by its own run. -/
theorem algebraic : Cert.algebraic_KernelIdeal_ReferenceIdeal := by
  intro m ρ m' ρ' _ hagree
  refine ⟨fun c => Cert.ReferenceIdeal.Read.val_main_v78 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Bridge.result m ρ c), (h c).2⟩)
      (Cert.KernelIdeal.RunResult.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v78_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
